-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S2x5000x128 : Shape := ⟨3, ![2, 5000, 128]⟩
abbrev S200x10000 : Shape := ⟨2, ![200, 10000]⟩
abbrev S2x200x128 : Shape := ⟨3, ![2, 200, 128]⟩
abbrev S200x128 : Shape := ⟨2, ![200, 128]⟩
abbrev S1x200x128 : Shape := ⟨3, ![1, 200, 128]⟩

abbrev nBuf : Space → Nat
  | .hbm => 5
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S2x5000x128, .f32⟩
  | .hbm, ⟨4, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S2x200x128, .f32⟩
  | .local _ .vmem, ⟨7, _⟩ => ⟨S2x200x128, .f32⟩
  | .local _ .vmem, ⟨8, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c25_i32 : BitVec 32 := 25#32
  let v0 : BitVec 32 := Scalar.addi c25_i32 arg0
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x200x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S200x10000_S200x10000_0_0 : ∀ a, (![0, 0] : Fin 2 → Nat) a + S200x10000.size a ≤ S200x10000.size a
  h_S200x10000 : 0 < S200x10000.numel
  inb_S2x200x128_S1x200x128_0_0_0 : ∀ a, (![0, 0, 0] : Fin 3 → Nat) a + S1x200x128.size a ≤ S2x200x128.size a
  h_S1x200x128 : 0 < S1x200x128.numel
  shapeCasts_S1x200x128_S200x128 : S1x200x128.ShapeCasts S200x128
  shapeCasts_S200x128_S1x200x128 : S200x128.ShapeCasts S1x200x128
  inb_S2x200x128_S1x200x128_1_0_0 : ∀ a, (![1, 0, 0] : Fin 3 → Nat) a + S1x200x128.size a ≤ S2x200x128.size a
  shapeCasts_S2x5000x128_S10000x128 : S2x5000x128.ShapeCasts S10000x128
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x200x128.size a ≤ S2x5000x128.size a
  hwx0_4 : ∀ i : grid0.Coords, EltTy.bits .f32 = 32 ∨ (Rect.block (s := S2x5000x128) S2x200x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2x200x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KBody.lean ====
import proofs.«136367_g3796751090358_cont_8to1_b_758_10_alg».proof.Proof.Gen.Kernel.Launch
import proofs.«136367_g3796751090358_cont_8to1_b_758_10_alg».proof.Proof.Gen.Kernel.Skeleton
import proofs.«136367_g3796751090358_cont_8to1_b_758_10_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's one branch: the product feat · weight is formed at the first grid point only -/

/-- The branch condition of the body, from the grid coordinate: the point is the first one. -/
abbrev cond0 (i : grid0.Coords) : Prop :=
  (Scalar.cmpi .ne (Scalar.extui (Scalar.cmpi .eq (BitVec.ofNat 32 (i 0).val) 0#32)) 0#32) = 1#1

/-- It holds exactly at point 0 of the 25. -/
theorem hcond0 : ∀ t : Fin cfg0.N, cond0 (grid0.coords t) ↔ t.val = 0 :=
  (by decide +kernel : ∀ t : Fin grid0.N, cond0 (grid0.coords t) ↔ t.val = 0)

set_option maxHeartbeats 1000000 in
/-- The body at the first point. From the four input blocks at their contents, the output block and the scratch
    at anything, it ends with the inputs as they were, the scratch rewritten whole (its pieces `LS`) and the
    output block rewritten by two slabs (its pieces `L4`); the pieces are found by running the body. -/
noncomputable def runFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S2x200x128 .f32) (harg5 : arg5.IsWhole) (arg6 : Memref sig .tc .vmem S10000x128 .bf16) (harg6 : arg6.IsWhole) (hc : cond0 i)
    (x0 : Vec F S10000x128 .f32) (x1 : Vec F S128x128 .f32) (x2 : Vec F S200x10000 .f32) (x3 : Vec F S200x10000 .f32) :
    Σ' (L4 : List (View.Piece (Elt F) S2x200x128 .f32)), { LS : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc0__body i arg1 harg1 arg2 harg2 arg3 harg3 arg4 harg4 arg5 harg5 arg6 harg6) K } := by
  refine ⟨?_, ?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg1.eq_unread hf0; obtain rfl := harg2.eq_unread hf1; obtain rfl := harg3.eq_unread hf2; obtain rfl := harg4.eq_unread hf3
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

set_option maxHeartbeats 1000000 in
/-- The body at a later point. The scratch is handed over at named contents `xs` (what the first point left) and
    comes back untouched; the output block is rewritten by two slabs (`L4`). -/
noncomputable def runLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S2x200x128 .f32) (harg5 : arg5.IsWhole) (arg6 : Memref sig .tc .vmem S10000x128 .bf16) (harg6 : arg6.IsWhole) (hc : ¬cond0 i)
    (x0 : Vec F S10000x128 .f32) (x1 : Vec F S128x128 .f32) (x2 : Vec F S200x10000 .f32) (x3 : Vec F S200x10000 .f32) (xs : Vec F S10000x128 .bf16) :
    { L4 : List (View.Piece (Elt F) S2x200x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc0__body i arg1 harg1 arg2 harg2 arg3 harg3 arg4 harg4 arg5 harg5 arg6 harg6) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1; obtain rfl := harg3.eq_unread hf2; obtain rfl := harg4.eq_unread hf3
    obtain rfl := harg6.eq_unread hfs
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact HS

end Cert.Kernel.Hand

end
-- ==== Proof.KFrame.lean ====
import proofs.«136367_g3796751090358_cont_8to1_b_758_10_alg».proof.Proof.KBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The arrays as the region finds them, and the windows' blocks -/

/-- Core `c`'s buffer contents when the region is entered: no host operation comes before it, so the launch memory. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not (an unfetched
    window's block index has not moved), for any proof data whose array is the entry contents and whose body leaves
    the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs at a point, the scratch -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S200x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2x200x128 .f32 := win0_4.stage (cfg0.slots t 4)
abbrev hs4 (t : Fin cfg0.N) : (ms4 t).IsWhole := hstage0_4 ((cfg0.slots t 4).cast nbuf0_4)
/-- The scratch: a whole buffer of the kernel's own, carried from point to point. -/
abbrev scM : Memref sig .tc .vmem S10000x128 .bf16 := Memref.whole cc0_scratch0
abbrev VS : View sig .tc .vmem S10000x128 .bf16 := scM.view
/-- One staging buffer of the output window, through which its contents are stated. -/
abbrev VO : View sig .tc .vmem S2x200x128 .f32 := (Memref.whole cc0_stg4_0 : Memref sig .tc .vmem S2x200x128 .f32).view

/-- The first of the 25 points. -/
def t0 : Fin cfg0.N := ⟨0, by rw [show cfg0.N = 25 from N_0]; decide⟩

/-- The only scoped buffer no window stages is the scratch. -/
theorem scopedRest_scr (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; rfl

/-! ## The pieces cover -/

theorem cover4_first (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S2x200x128 .f32) (harg5 : arg5.IsWhole) (arg6 : Memref sig .tc .vmem S10000x128 .bf16) (harg6 : arg6.IsWhole) (hc : cond0 i)
    (x0 : Vec F S10000x128 .f32) (x1 : Vec F S128x128 .f32) (x2 : Vec F S200x10000 .f32) (x3 : Vec F S200x10000 .f32) (y : S2x200x128.Idx) :
    ∃ pc ∈ (runFirst c i arg1 harg1 arg2 harg2 arg3 harg3 arg4 harg4 arg5 harg5 arg6 harg6 hc x0 x1 x2 x3).1, y ∈ pc.1.set :=
  View.cover_of_tiledL (runFirst c i arg1 harg1 arg2 harg2 arg3 harg3 arg4 harg4 arg5 harg5 arg6 harg6 hc x0 x1 x2 x3).1 S1x200x128.size (by sl_kernel_rfl) y

theorem scover_first (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S2x200x128 .f32) (harg5 : arg5.IsWhole) (arg6 : Memref sig .tc .vmem S10000x128 .bf16) (harg6 : arg6.IsWhole) (hc : cond0 i)
    (x0 : Vec F S10000x128 .f32) (x1 : Vec F S128x128 .f32) (x2 : Vec F S200x10000 .f32) (x3 : Vec F S200x10000 .f32) (y : S10000x128.Idx) :
    ∃ pc ∈ (runFirst c i arg1 harg1 arg2 harg2 arg3 harg3 arg4 harg4 arg5 harg5 arg6 harg6 hc x0 x1 x2 x3).2.1, y ∈ pc.1.set :=
  View.cover_of_tiledL (runFirst c i arg1 harg1 arg2 harg2 arg3 harg3 arg4 harg4 arg5 harg5 arg6 harg6 hc x0 x1 x2 x3).2.1 S10000x128.size (by sl_kernel_rfl) y

theorem cover4_later (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S2x200x128 .f32) (harg5 : arg5.IsWhole) (arg6 : Memref sig .tc .vmem S10000x128 .bf16) (harg6 : arg6.IsWhole) (hc : ¬cond0 i)
    (x0 : Vec F S10000x128 .f32) (x1 : Vec F S128x128 .f32) (x2 : Vec F S200x10000 .f32) (x3 : Vec F S200x10000 .f32) (xs : Vec F S10000x128 .bf16) (y : S2x200x128.Idx) :
    ∃ pc ∈ (runLater c i arg1 harg1 arg2 harg2 arg3 harg3 arg4 harg4 arg5 harg5 arg6 harg6 hc x0 x1 x2 x3 xs).1, y ∈ pc.1.set :=
  View.cover_of_tiledL (runLater c i arg1 harg1 arg2 harg2 arg3 harg3 arg4 harg4 arg5 harg5 arg6 harg6 hc x0 x1 x2 x3 xs).1 S1x200x128.size (by sl_kernel_rfl) y

/-! ## What the scratch and the output block hold -/

/-- What the first point leaves in the scratch (the rounded product feat · weight): its pieces read back. -/
def scr (c : Dev nD) : Vec F S10000x128 .bf16 :=
  VS.read (Elt F) (VS.writes (Elt F) VS.junk (runFirst c (grid0.coords t0) (ms0 t0) (hs0 t0) (ms1 t0) (hs1 t0) (ms2 t0) (hs2 t0) (ms3 t0) (hs3 t0) (ms4 t0) (hs4 t0) scM (Memref.isWhole_whole _) ((hcond0 t0).mpr rfl) (iblk m c 0 t0) (iblk m c 1 t0) (iblk m c 2 t0) (iblk m c 3 t0)).2.1)

/-- What point `t` leaves in the output's staging buffer: the two slabs the body stores there, from the point's two
    blocks of adj and the scratch. -/
def out4 (c : Dev nD) (t : Fin cfg0.N) : Vec F S2x200x128 .f32 :=
  if h : t.val = 0 then
    VO.read (Elt F) (VO.writes (Elt F) VO.junk (runFirst c (grid0.coords t) (ms0 t) (hs0 t) (ms1 t) (hs1 t) (ms2 t) (hs2 t) (ms3 t) (hs3 t) (ms4 t) (hs4 t) scM (Memref.isWhole_whole _) ((hcond0 t).mpr h) (iblk m c 0 t) (iblk m c 1 t) (iblk m c 2 t) (iblk m c 3 t)).1)
  else
    VO.read (Elt F) (VO.writes (Elt F) VO.junk (runLater c (grid0.coords t) (ms0 t) (hs0 t) (ms1 t) (hs1 t) (ms2 t) (hs2 t) (ms3 t) (hs3 t) (ms4 t) (hs4 t) scM (Memref.isWhole_whole _) (fun hc => h ((hcond0 t).mp hc)) (iblk m c 0 t) (iblk m c 1 t) (iblk m c 2 t) (iblk m c 3 t) (scr m c)).1)

theorem out4_first (c : Dev nD) (t : Fin cfg0.N) (h : t.val = 0) : out4 m c t =
    VO.read (Elt F) (VO.writes (Elt F) VO.junk (runFirst c (grid0.coords t) (ms0 t) (hs0 t) (ms1 t) (hs1 t) (ms2 t) (hs2 t) (ms3 t) (hs3 t) (ms4 t) (hs4 t) scM (Memref.isWhole_whole _) ((hcond0 t).mpr h) (iblk m c 0 t) (iblk m c 1 t) (iblk m c 2 t) (iblk m c 3 t)).1) := dif_pos h
theorem out4_later (c : Dev nD) (t : Fin cfg0.N) (h : ¬t.val = 0) : out4 m c t =
    VO.read (Elt F) (VO.writes (Elt F) VO.junk (runLater c (grid0.coords t) (ms0 t) (hs0 t) (ms1 t) (hs1 t) (ms2 t) (hs2 t) (ms3 t) (hs3 t) (ms4 t) (hs4 t) scM (Memref.isWhole_whole _) (fun hc => h ((hcond0 t).mp hc)) (iblk m c 0 t) (iblk m c 1 t) (iblk m c 2 t) (iblk m c 3 t) (scr m c)).1) := dif_neg h

/-- The region's invariant before position `n`: the scratch at anything before the first point, at what the first
    point left in it afterwards. -/
def PhiS (c : Dev nD) : ℕ → sProp 𝕄
  | 0 => iprop(∃ d, owns (c : Thread nD τ) scM fullShare d)
  | _ + 1 => owns (c : Thread nD τ) scM fullShare (scr m c)

theorem PhiS_zero (c : Dev nD) (n : ℕ) (h : n = 0) : PhiS m c n = iprop(∃ d, owns (c : Thread nD τ) scM fullShare d) := by
  subst h; rfl
theorem PhiS_succ (c : Dev nD) (n : ℕ) : PhiS m c (n + 1) = owns (c : Thread nD τ) scM fullShare (scr m c) := rfl
theorem PhiS_pos (c : Dev nD) (n : ℕ) (h : n ≠ 0) : PhiS m c n = owns (c : Thread nD τ) scM fullShare (scr m c) := by
  cases n with
  | zero => exact absurd rfl h
  | succ n => rfl

/-! ## The proof data -/

/-- The arrays as the region finds them; after the body each input's buffer at its block, the output's at `out4`;
    the invariant `PhiS`; nothing owed. The two windows on adj hold it at the two halves of the full share. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c t
  Φ t := PhiS m c t.val
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m c).A w = V m c (Pipeline.arrRef spec0 w) := by
  dsimp only [dats]

theorem Phi_castSucc (c : Dev nD) (t : Fin cfg0.N) : (dats m c).Φ t.castSucc = PhiS m c t.val := by
  dsimp only [dats]; simp only [Fin.coe_castSucc]

theorem after_0 (c : Dev nD) (t : Fin cfg0.N) : (dats m c).after 0 t = iblk m c 0 t := by dsimp only [dats]
theorem after_1 (c : Dev nD) (t : Fin cfg0.N) : (dats m c).after 1 t = iblk m c 1 t := by dsimp only [dats]
theorem after_2 (c : Dev nD) (t : Fin cfg0.N) : (dats m c).after 2 t = iblk m c 2 t := by dsimp only [dats]
theorem after_3 (c : Dev nD) (t : Fin cfg0.N) : (dats m c).after 3 t = iblk m c 3 t := by dsimp only [dats]
theorem after_4 (c : Dev nD) (t : Fin cfg0.N) : (dats m c).after 4 t = out4 m c t := by dsimp only [dats]

theorem before0 (c : Dev nD) (t : Fin cfg0.N) (d) : (dats m c).before 0 t d = iblk m c 0 t :=
  before0_of m (dats m c) (A_eq m c 0) (after_0 m c) t d
theorem before1 (c : Dev nD) (t : Fin cfg0.N) (d) : (dats m c).before 1 t d = iblk m c 1 t :=
  before1_of m (dats m c) (A_eq m c 1) (after_1 m c) t d
theorem before2 (c : Dev nD) (t : Fin cfg0.N) (d) : (dats m c).before 2 t d = iblk m c 2 t :=
  before2_of m (dats m c) (A_eq m c 2) (after_2 m c) t d
theorem before3 (c : Dev nD) (t : Fin cfg0.N) (d) : (dats m c).before 3 t d = iblk m c 3 t :=
  before3_of m (dats m c) (A_eq m c 3) (after_3 m c) t d

/-! ## The body obligation -/

def bodyPre (c : Dev nD) (t : Fin cfg0.N) : sProp 𝕄 :=
  iprop((dats m c).Φ t.castSucc ∗ (dats m c).owesAt () t.castSucc
    ∗ (∃ d, owns (c : Thread nD τ) (ms0 t) fullShare ((dats m c).before 0 t d))
    ∗ (∃ d, owns (c : Thread nD τ) (ms1 t) fullShare ((dats m c).before 1 t d))
    ∗ (∃ d, owns (c : Thread nD τ) (ms2 t) fullShare ((dats m c).before 2 t d))
    ∗ (∃ d, owns (c : Thread nD τ) (ms3 t) fullShare ((dats m c).before 3 t d))
    ∗ (∃ d, owns (c : Thread nD τ) (ms4 t) fullShare ((dats m c).before 4 t d)))

def bodyPost (c : Dev nD) (t : Fin cfg0.N) : sProp 𝕄 :=
  iprop((dats m c).Φ t.succ ∗ (dats m c).owesAt () t.succ
    ∗ owns (c : Thread nD τ) (ms0 t) fullShare ((dats m c).after 0 t)
    ∗ owns (c : Thread nD τ) (ms1 t) fullShare ((dats m c).after 1 t)
    ∗ owns (c : Thread nD τ) (ms2 t) fullShare ((dats m c).after 2 t)
    ∗ owns (c : Thread nD τ) (ms3 t) fullShare ((dats m c).after 3 t)
    ∗ owns (c : Thread nD τ) (ms4 t) fullShare ((dats m c).after 4 t))

set_option maxHeartbeats 4800000 in
/-- The body at any point. The inputs' buffers hold their blocks; at the first point the scratch is at anything and
    comes back at `scr`, at a later point it is handed over at `scr` and comes back untouched; the output's buffer
    comes back at `out4`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m c).owesAt () t.succ = (dats m c).owesAt () t.castSucc from rfl]
  rw [show (dats m c).Φ t.succ = PhiS m c (t.val + 1) from rfl, PhiS_succ, Phi_castSucc, after_0, after_1, after_2, after_3, after_4]
  by_cases hz : t.val = 0
  · rw [out4_first m c t hz, PhiS_zero m c _ hz]
    obtain rfl : t = t0 := Fin.ext hz
    unfold scr
    iintro ⟨HS, Ho, ⟨%d0, H0⟩, ⟨%d1, H1⟩, ⟨%d2, H2⟩, ⟨%d3, H3⟩, ⟨%d4, H4⟩⟩
    iapply ((runFirst c (grid0.coords t0) _ _ _ _ _ _ _ _ _ _ _ _ ((hcond0 t0).mpr rfl) (iblk m c 0 t0) (iblk m c 1 t0) (iblk m c 2 t0) (iblk m c 3 t0)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS]
    · unfold owns; iexists _; isplitr
      swap; · iexact HS
      ipureintro; exact View.read_writes_of_cover _ _ _ _ _ (scover_first c _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover4_first c _ _ _ _ _ _ _ _ _ _ _ _ _ _ _ _ _ _)
  · rw [out4_later m c t hz, PhiS_pos m c _ hz]
    iintro ⟨HS, Ho, ⟨%d0, H0⟩, ⟨%d1, H1⟩, ⟨%d2, H2⟩, ⟨%d3, H3⟩, ⟨%d4, H4⟩⟩
    iapply ((runLater c (grid0.coords t) _ _ _ _ _ _ _ _ _ _ _ _ (fun hc => hz ((hcond0 t).mp hc)) (iblk m c 0 t) (iblk m c 1 t) (iblk m c 2 t) (iblk m c 3 t) (scr m c)).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS]; · iexact HS
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover4_later c _ _ _ _ _ _ _ _ _ _ _ _ _ _ _ _ _ _ _)

/-- The library's body obligation, at every point. -/
theorem body_obligation (c : Dev nD) : BodyObligation (dats (F := F) m c) (defs₀ (F := F)) Variants.none () Set.univ := fun t => by
  rw [bigSep_W0, bigSep_W0]
  exact sound_body m c t

end Cert.Kernel.Hand

end
-- ==== Proof.KRun.lean ====
import proofs.«136367_g3796751090358_cont_8to1_b_758_10_alg».proof.Proof.KFrame
import Idealize.ShloMosaic.Lib.Pipeline.Regions
import Idealize.ShloMosaic.Lib.Pipeline.Kit
import Idealize.ShloMosaic.Lib.StableHlo

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program as two segments: the region, then the reshape -/

/-- Nothing is prefetched. -/
abbrev adm : (p : Fin 1) → (pcfgs (F := F) p).Adm := fun p => (cfgs p).toPCfg_adm

/-- The one pipeline's proof data. -/
def pdats (p : Fin 1) (c : Dev nD) : Dat τ (Elt F) Unit ℕ (UR sig nD τ) ℕ (Pipeline.pin (pcfgs (F := F)) adm p) c := dats m c

/-- A buffer of core `c` held whole, at share `q` and contents `f`. -/
abbrev pt (c : Dev nD) (b : Ref sig .tc) (q : PosShare TreeShare) (f : b.ty.Contents (Elt F)) : sProp 𝕄 :=
  (Memref.whole b).view.loc (c : Thread nD τ) ↦{q} f

/-- The output array after the last grid point. -/
def fin4 (c : Dev nD) : (Proc.devRef .tc main_v0 : DevRef τ sig).ty.Contents (Elt F) := (dats m c).arrAt 4 cfg0.N

/-- The device's buffers at launch; after the region (the output array rewritten); after the reshape. -/
abbrev V₀ (c : Dev nD) : Valuation τ sig (Elt F) := fun b => m ((c : Dev nD), b)
abbrev V₁ (c : Dev nD) : Valuation τ sig (Elt F) := Function.update (V₀ m c) (Proc.devRef .tc main_v0) (fin4 m c)
abbrev V₂ (c : Dev nD) : Valuation τ sig (Elt F) := StableHlo.after hostOps1 (V₁ m c)

/-- The five unscoped buffers, one by one. -/
theorem uc_eq (c : Dev nD) (W : Valuation τ sig (Elt F)) : (StableHlo.held (c : Thread nD τ) (Pipeline.ucRefs τ sig) W : sProp 𝕄)
    = iprop(pt c main_arg0 fullShare (W (Proc.devRef .tc main_arg0)) ∗ pt c main_arg1 fullShare (W (Proc.devRef .tc main_arg1))
        ∗ pt c main_arg2 fullShare (W (Proc.devRef .tc main_arg2)) ∗ pt c main_v0 fullShare (W (Proc.devRef .tc main_v0))
        ∗ pt c main_v1 fullShare (W (Proc.devRef .tc main_v1))) := by
  unfold StableHlo.held
  rw [bigSep_eq_bigSepL_of_eq [Proc.devRef .tc main_arg0, Proc.devRef .tc main_arg1, Proc.devRef .tc main_arg2, Proc.devRef .tc main_v0, Proc.devRef .tc main_v1] (by decide) (by decide)]
  rfl

/-- The windows' arrays, one by one: feat and weight whole, adj at the two halves of the full share (two windows read
    it), the output whole. -/
theorem arrays_eq (c : Dev nD) (Fa : (w : Fin cfg0.W) → Buf (Elt F) ((cfg0.win w).arr.view.loc (c : Thread nD τ))) :
    ((dats m c).arrays Fa : sProp 𝕄)
      = iprop(pt c main_arg0 fullShare (Fa 0) ∗ pt c main_arg2 fullShare (Fa 1) ∗ pt c main_arg1 fullShare.left (Fa 2)
          ∗ pt c main_arg1 fullShare.right (Fa 3) ∗ pt c main_v0 fullShare (Fa 4)) := by
  unfold Dat.arrays
  rw [bigSep_W0]
  have h0 : (cfg0.win 0).arr.IsWhole := Memref.isWhole_whole _
  have h1 : (cfg0.win 1).arr.IsWhole := Memref.isWhole_whole _
  have h2 : (cfg0.win 2).arr.IsWhole := Memref.isWhole_whole _
  have h3 : (cfg0.win 3).arr.IsWhole := Memref.isWhole_whole _
  have h4 : (cfg0.win 4).arr.IsWhole := Memref.isWhole_whole _
  rw [h0.set_eq_univ, h1.set_eq_univ, h2.set_eq_univ, h4.set_eq_univ]
  rw [show (dats m c).share 0 = fullShare from rfl, show (dats m c).share 1 = fullShare from rfl,
    show (dats m c).share 2 = fullShare.left from rfl, show (dats m c).share 3 = fullShare.right from rfl,
    show (dats m c).share 4 = fullShare from rfl]

theorem bigSep_F0 {M : Type} [URA M] (Φ : Fin 0 → sProp M) : bigSep Finset.univ Φ = (BI.emp : sProp M) :=
  bigSep_univ_eq_bigSepL [] (by decide) (by decide) Φ

theorem prefHeld_none (c : Dev nD) (q) (pf) :
    (Pipeline.prefHeld (Ix := Unit) (Name := ℕ) (U := UR sig nD τ) (Lvl := ℕ) (Val := Elt F) (pcfgs (F := F) 0).pre c q pf : sProp 𝕄) = BI.emp :=
  bigSep_F0 _

theorem owesAt_intro (c : Dev nD) (t : Fin (cfg0.N + 1)) :
    iprop(∃ W, owes (c : Thread nD τ) (0 : CellTallies nD τ sig Unit) W) ⊢ ((dats m c).owesAt () t : sProp 𝕄) := by
  unfold Pipeline.Dat.owesAt Pipeline.owesWithin Pipeline.Dat.bound
  rw [show (dats m c).owed t = 0 from rfl, show (dats m c).recorded t = Set.univ from rfl]
  iintro ⟨%W, HO⟩; iexists W; isplitr; · ipureintro; exact fun _ _ => Or.inl trivial
  iexact HO
theorem owesAt_elim (c : Dev nD) (t : Fin (cfg0.N + 1)) :
    ((dats m c).owesAt () t : sProp 𝕄) ⊢ iprop(∃ W, owes (c : Thread nD τ) (0 : CellTallies nD τ sig Unit) W) := by
  unfold Pipeline.Dat.owesAt Pipeline.owesWithin; rw [show (dats m c).owed t = 0 from rfl]
  iintro ⟨%W, -, HO⟩; iexists W; iexact HO

/-- No core owes anything at launch: no level is assigned. -/
abbrev L : GSem nD τ sig → Finset Unit := fun _ => ∅
abbrev lv : GSem nD τ sig → Unit → ℕ := fun _ _ => 0

/-- What rides along beside the buffers: the core owing nothing. -/
abbrev R (c : Dev nD) : sProp 𝕄 := iprop(∃ W, owes (c : Thread nD τ) (0 : CellTallies nD τ sig Unit) W)

theorem V₁_arg0 (c : Dev nD) : V₁ m c (Proc.devRef .tc main_arg0) = V₀ m c (Proc.devRef .tc main_arg0) := Function.update_of_ne (by decide) ..
theorem V₁_arg1 (c : Dev nD) : V₁ m c (Proc.devRef .tc main_arg1) = V₀ m c (Proc.devRef .tc main_arg1) := Function.update_of_ne (by decide) ..
theorem V₁_arg2 (c : Dev nD) : V₁ m c (Proc.devRef .tc main_arg2) = V₀ m c (Proc.devRef .tc main_arg2) := Function.update_of_ne (by decide) ..
theorem V₁_v1 (c : Dev nD) : V₁ m c (Proc.devRef .tc main_v1) = V₀ m c (Proc.devRef .tc main_v1) := Function.update_of_ne (by decide) ..
theorem V₁_v0 (c : Dev nD) : V₁ m c (Proc.devRef .tc main_v0) = fin4 m c := Function.update_self ..

/-- An input array is never written: it ends as it was found. -/
theorem arrAt_0 (c : Dev nD) (n : ℕ) : (dats m c).arrAt 0 n = V₀ m c (Proc.devRef .tc main_arg0) := ((dats m c).arrAt_in 0 rfl n).trans (A_eq m c 0)
theorem arrAt_1 (c : Dev nD) (n : ℕ) : (dats m c).arrAt 1 n = V₀ m c (Proc.devRef .tc main_arg2) := ((dats m c).arrAt_in 1 rfl n).trans (A_eq m c 1)
theorem arrAt_2 (c : Dev nD) (n : ℕ) : (dats m c).arrAt 2 n = V₀ m c (Proc.devRef .tc main_arg1) := ((dats m c).arrAt_in 2 rfl n).trans (A_eq m c 2)
theorem arrAt_3 (c : Dev nD) (n : ℕ) : (dats m c).arrAt 3 n = V₀ m c (Proc.devRef .tc main_arg1) := ((dats m c).arrAt_in 3 rfl n).trans (A_eq m c 3)

local notation "ℍ" => Pipeline.HostSeg (Name := ℕ) (U := UR sig nD τ) (pcfgs (F := F)) defs₀ Variants.none L lv
local notation "ℝ𝕊" => Pipeline.RegionSeg (pcfgs (F := F)) adm (pdats m) () defs₀ Variants.none L lv

/-- THE REGION, entered from the five buffers at the launch contents: feat, weight and the output array go to their
    windows whole, adj is dealt in two halves to the two windows that read it, the reshape's target bypasses; the
    scratch enters the invariant at anything. At the exit the halves of adj are joined again. -/
def reg0 : ℝ𝕊 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V₀ m c) ∗ R c)
  post c := iprop(StableHlo.held (c : Thread nD τ) (Pipeline.ucRefs τ sig) (V₁ m c) ∗ R c)
  X _ := BI.emp
  Y _ := BI.emp
  Z c := pt c main_v1 fullShare (V₀ m c (Proc.devRef .tc main_v1))
  hentry c := by
    rw [uc_eq, Pipeline.ownSems0_none, prefHeld_none]
    show _ ⊢ |={Set.univ}=> iprop((dats m c).arrays ((dats m c).arrAt · 0) ∗ _)
    rw [arrays_eq]
    iintro ⟨⟨⟨H0, H1, H2, Hv0, Hv1⟩, HO⟩, -, -⟩
    ihave H1' := (pointsTo_share (PosShare.mem_left_op_right fullShare)).1 $$ H1
    icases H1' with ⟨H1l, H1r⟩
    imodintro
    isplitl [H0 H2 H1l H1r Hv0]
    · isplitl [H0]; · iexact H0
      isplitl [H2]; · iexact H2
      isplitl [H1l]; · iexact H1l
      isplitl [H1r]; · iexact H1r
      iexact Hv0
    isplitr; · iempintro
    isplitl [HO]; · iapply (owesAt_intro m c 0); iexact HO
    isplitr; · iempintro
    iexact Hv1
  hin c := by
    rw [scopedRest_scr]
    show _ ⊢ PhiS m c 0
    rw [PhiS_zero m c 0 rfl]
    iintro ⟨-, -, H⟩; iexact H
  hout c := by
    rw [Pipeline.ownSems0_none, scopedRest_scr]
    show PhiS m c (Fin.last cfg0.N).val ⊢ _
    rw [PhiS_pos m c _ (by rw [Fin.val_last]; have : cfg0.N = 25 := N_0; omega)]
    iintro H
    isplitr; · iempintro
    isplitr; · iempintro
    iexists _; iexact H
  hexit c := by
    rw [uc_eq]
    show iprop((dats m c).arrays ((dats m c).arrAt · cfg0.N) ∗ (dats m c).owesAt () (Fin.last cfg0.N) ∗ _) ⊢ _
    rw [arrays_eq, arrAt_0, arrAt_1, arrAt_2, arrAt_3, V₁_arg0, V₁_arg1, V₁_arg2, V₁_v0, V₁_v1]
    iintro ⟨⟨H0, H2, H1l, H1r, Hv0⟩, HO, -, Hv1⟩
    ihave H1 := (pointsTo_share (PosShare.mem_left_op_right fullShare)).2 $$ [H1l H1r]
    · isplitl [H1l] <;> iassumption
    imodintro
    isplitr [HO]
    · isplitl [H0]; · iexact H0
      isplitl [H1]; · iexact H1
      isplitl [H2]; · iexact H2
      isplitl [Hv0]; · iexact Hv0
      iexact Hv1
    iapply (owesAt_elim m c _); iexact HO

theorem ops_sub : ∀ op ∈ (hostOps1 : List (HloOp τ sig (Elt F))), op.bufs ⊆ Pipeline.ucRefs τ sig := fun op h =>
  Pipeline.sub_ucRefs op ((List.forall_iff_forall_mem.mp hostOps1_sub) op h)
theorem ops_fresh : ∀ op ∈ (hostOps1 : List (HloOp τ sig (Elt F))), op.fresh = ∅ := fun op h => by
  simp only [hostOps1, List.mem_singleton] at h; subst h; rfl

/-- THE RESHAPE, over the five buffers as the region left them. -/
def seg1 : ℍ := Pipeline.HostSeg.ofOps _ _ _ _ _ (Pipeline.ucRefs τ sig) hostOps1 ops_sub ops_fresh (V₁ m) R

def segs : List (Pipeline.Seg (pcfgs (F := F)) adm (pdats m) () defs₀ Variants.none L lv) := [.region (reg0 m), .host (seg1 m)]

theorem main_eq (c : Dev nD) : main (F := F) c = Pipeline.Seg.run (segs m) :=
  main_segs adm (pdats m) () Variants.none L lv (seg1 m) (reg0 m) rfl c

/-! ## The launch -/

/-- What a final state's memory holds on core `c`. -/
def QY (c : Dev nD) (s : MemSt nD τ sig (Elt F)) : Prop :=
  s.mem ((Memref.whole main_arg0).view.loc (c : Thread nD τ)) = V₂ m c (Proc.devRef .tc main_arg0)
    ∧ s.mem ((Memref.whole main_arg1).view.loc (c : Thread nD τ)) = V₂ m c (Proc.devRef .tc main_arg1)
    ∧ s.mem ((Memref.whole main_arg2).view.loc (c : Thread nD τ)) = V₂ m c (Proc.devRef .tc main_arg2)
    ∧ s.mem ((Memref.whole main_v1).view.loc (c : Thread nD τ)) = V₂ m c (Proc.devRef .tc main_v1)

theorem V₂_arg0 (c : Dev nD) : V₂ m c (Proc.devRef .tc main_arg0) = m ((c : Thread nD τ).loc main_arg0) := by
  show StableHlo.after hostOps1 (V₁ m c) (Proc.devRef .tc main_arg0) = _
  have hne : (main_arg0 : Ref sig .tc) ≠ main_v1 := by decide
  rw [StableHlo.after_cons, StableHlo.after_nil, StableHlo.reshape_result_ne (h := hne), V₁_arg0]
theorem V₂_arg1 (c : Dev nD) : V₂ m c (Proc.devRef .tc main_arg1) = m ((c : Thread nD τ).loc main_arg1) := by
  show StableHlo.after hostOps1 (V₁ m c) (Proc.devRef .tc main_arg1) = _
  have hne : (main_arg1 : Ref sig .tc) ≠ main_v1 := by decide
  rw [StableHlo.after_cons, StableHlo.after_nil, StableHlo.reshape_result_ne (h := hne), V₁_arg1]
theorem V₂_arg2 (c : Dev nD) : V₂ m c (Proc.devRef .tc main_arg2) = m ((c : Thread nD τ).loc main_arg2) := by
  show StableHlo.after hostOps1 (V₁ m c) (Proc.devRef .tc main_arg2) = _
  have hne : (main_arg2 : Ref sig .tc) ≠ main_v1 := by decide
  rw [StableHlo.after_cons, StableHlo.after_nil, StableHlo.reshape_result_ne (h := hne), V₁_arg2]
/-- The result: the output array after the last point, read at the reshaped index. -/
theorem V₂_v1 (c : Dev nD) : V₂ m c (Proc.devRef .tc main_v1) = fun i => shapeCast S10000x128 (fin4 m c) shapeCasts_S2x5000x128_S10000x128 i := by
  show StableHlo.after hostOps1 (V₁ m c) (Proc.devRef .tc main_v1) = _
  rw [StableHlo.after_cons, StableHlo.after_nil, StableHlo.reshape_result', V₁_v0]
  rfl

set_option backward.isDefEq.respectTransparency.types false in
/-- THE RUN: at any float values, from any memory with zero counters, every weakly fair execution of the program
    terminates, the three argument arrays end as they were, and the result array ends at the reshaped output of the
    region. -/
theorem run_main : θ_run defs (onTc (τ := τ) (main (F := F))) ⟨m, fun _ => 0, ρ⟩ (fun r => ∀ c : Dev nD,
    r.2.mem ((c : Thread nD τ).loc main_v1) = (fun i => shapeCast S10000x128 (fin4 m c) shapeCasts_S2x5000x128_S10000x128 i)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  Pipeline.θ_run_regions_kit (pcfgs (F := F)) adm (pdats m) () cellOf_inj emb₁ defs₀ Variants.none L lv m ρ main (segs m) (fun c Q => by rw [main_eq m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu; imodintro
      isplitl [Hu]; · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (V₂ m c))
    (hch := ⟨fun c => .rfl, fun c => .rfl, fun c => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := QY m)
    (hfin := fun c s' => by
      rw [uc_eq]
      iintro ⟨⟨H0, H1, H2, Hv0, Hv1⟩, HSI⟩
      icombine HSI H0 gives %h0
      icombine HSI H1 gives %h1
      icombine HSI H2 gives %h2
      icombine HSI Hv1 gives %hv1
      imodintro
      isplitr; · ipureintro; exact ⟨Buf.eq_of_forall_mem_univ h0, Buf.eq_of_forall_mem_univ h1, Buf.eq_of_forall_mem_univ h2, Buf.eq_of_forall_mem_univ hv1⟩
      iexact HSI)
    (hQ := fun s h c => by
      obtain ⟨h0, h1, h2, hv1⟩ := h c
      rw [V₂_arg0] at h0; rw [V₂_arg1] at h1; rw [V₂_arg2] at h2; rw [V₂_v1] at hv1
      exact ⟨hv1, h0, h1, h2⟩)

end Cert.Kernel.Hand

end
-- ==== Proof.KIBody.lean ====
import proofs.«136367_g3796751090358_cont_8to1_b_758_10_alg».proof.Proof.Gen.KernelIdeal.Launch
import proofs.«136367_g3796751090358_cont_8to1_b_758_10_alg».proof.Proof.Gen.KernelIdeal.Skeleton
import proofs.«136367_g3796751090358_cont_8to1_b_758_10_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's one branch: the product feat · weight is formed at the first grid point only -/

/-- The branch condition of the body, from the grid coordinate: the point is the first one. -/
abbrev cond0 (i : grid0.Coords) : Prop :=
  (Scalar.cmpi .ne (Scalar.extui (Scalar.cmpi .eq (BitVec.ofNat 32 (i 0).val) 0#32)) 0#32) = 1#1

/-- It holds exactly at point 0 of the 25. -/
theorem hcond0 : ∀ t : Fin cfg0.N, cond0 (grid0.coords t) ↔ t.val = 0 :=
  (by decide +kernel : ∀ t : Fin grid0.N, cond0 (grid0.coords t) ↔ t.val = 0)

set_option maxHeartbeats 1000000 in
/-- The body at the first point. From the four input blocks at their contents, the output block and the scratch
    at anything, it ends with the inputs as they were, the scratch rewritten whole (its pieces `LS`) and the
    output block rewritten by two slabs (its pieces `L4`); the pieces are found by running the body. -/
noncomputable def runFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S2x200x128 .f32) (harg5 : arg5.IsWhole) (arg6 : Memref sig .tc .vmem S10000x128 .bf16) (harg6 : arg6.IsWhole) (hc : cond0 i)
    (x0 : Vec F S10000x128 .f32) (x1 : Vec F S128x128 .f32) (x2 : Vec F S200x10000 .f32) (x3 : Vec F S200x10000 .f32) :
    Σ' (L4 : List (View.Piece (Elt F) S2x200x128 .f32)), { LS : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc0__body i arg1 harg1 arg2 harg2 arg3 harg3 arg4 harg4 arg5 harg5 arg6 harg6) K } := by
  refine ⟨?_, ?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg1.eq_unread hf0; obtain rfl := harg2.eq_unread hf1; obtain rfl := harg3.eq_unread hf2; obtain rfl := harg4.eq_unread hf3
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

set_option maxHeartbeats 1000000 in
/-- The body at a later point. The scratch is handed over at named contents `xs` (what the first point left) and
    comes back untouched; the output block is rewritten by two slabs (`L4`). -/
noncomputable def runLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S2x200x128 .f32) (harg5 : arg5.IsWhole) (arg6 : Memref sig .tc .vmem S10000x128 .bf16) (harg6 : arg6.IsWhole) (hc : ¬cond0 i)
    (x0 : Vec F S10000x128 .f32) (x1 : Vec F S128x128 .f32) (x2 : Vec F S200x10000 .f32) (x3 : Vec F S200x10000 .f32) (xs : Vec F S10000x128 .bf16) :
    { L4 : List (View.Piece (Elt F) S2x200x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc0__body i arg1 harg1 arg2 harg2 arg3 harg3 arg4 harg4 arg5 harg5 arg6 harg6) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1; obtain rfl := harg3.eq_unread hf2; obtain rfl := harg4.eq_unread hf3
    obtain rfl := harg6.eq_unread hfs
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact HS

end Cert.KernelIdeal.Hand

end
-- ==== Proof.KIFrame.lean ====
import proofs.«136367_g3796751090358_cont_8to1_b_758_10_alg».proof.Proof.KIBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The arrays as the region finds them, and the windows' blocks -/

/-- Core `c`'s buffer contents when the region is entered: no host operation comes before it, so the launch memory. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not (an unfetched
    window's block index has not moved), for any proof data whose array is the entry contents and whose body leaves
    the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs at a point, the scratch -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S200x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2x200x128 .f32 := win0_4.stage (cfg0.slots t 4)
abbrev hs4 (t : Fin cfg0.N) : (ms4 t).IsWhole := hstage0_4 ((cfg0.slots t 4).cast nbuf0_4)
/-- The scratch: a whole buffer of the kernel's own, carried from point to point. -/
abbrev scM : Memref sig .tc .vmem S10000x128 .bf16 := Memref.whole cc0_scratch0
abbrev VS : View sig .tc .vmem S10000x128 .bf16 := scM.view
/-- One staging buffer of the output window, through which its contents are stated. -/
abbrev VO : View sig .tc .vmem S2x200x128 .f32 := (Memref.whole cc0_stg4_0 : Memref sig .tc .vmem S2x200x128 .f32).view

/-- The first of the 25 points. -/
def t0 : Fin cfg0.N := ⟨0, by rw [show cfg0.N = 25 from N_0]; decide⟩

/-- The only scoped buffer no window stages is the scratch. -/
theorem scopedRest_scr (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; rfl

/-! ## The pieces cover -/

theorem cover4_first (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S2x200x128 .f32) (harg5 : arg5.IsWhole) (arg6 : Memref sig .tc .vmem S10000x128 .bf16) (harg6 : arg6.IsWhole) (hc : cond0 i)
    (x0 : Vec F S10000x128 .f32) (x1 : Vec F S128x128 .f32) (x2 : Vec F S200x10000 .f32) (x3 : Vec F S200x10000 .f32) (y : S2x200x128.Idx) :
    ∃ pc ∈ (runFirst c i arg1 harg1 arg2 harg2 arg3 harg3 arg4 harg4 arg5 harg5 arg6 harg6 hc x0 x1 x2 x3).1, y ∈ pc.1.set :=
  View.cover_of_tiledL (runFirst c i arg1 harg1 arg2 harg2 arg3 harg3 arg4 harg4 arg5 harg5 arg6 harg6 hc x0 x1 x2 x3).1 S1x200x128.size (by sl_kernel_rfl) y

theorem scover_first (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S2x200x128 .f32) (harg5 : arg5.IsWhole) (arg6 : Memref sig .tc .vmem S10000x128 .bf16) (harg6 : arg6.IsWhole) (hc : cond0 i)
    (x0 : Vec F S10000x128 .f32) (x1 : Vec F S128x128 .f32) (x2 : Vec F S200x10000 .f32) (x3 : Vec F S200x10000 .f32) (y : S10000x128.Idx) :
    ∃ pc ∈ (runFirst c i arg1 harg1 arg2 harg2 arg3 harg3 arg4 harg4 arg5 harg5 arg6 harg6 hc x0 x1 x2 x3).2.1, y ∈ pc.1.set :=
  View.cover_of_tiledL (runFirst c i arg1 harg1 arg2 harg2 arg3 harg3 arg4 harg4 arg5 harg5 arg6 harg6 hc x0 x1 x2 x3).2.1 S10000x128.size (by sl_kernel_rfl) y

theorem cover4_later (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S2x200x128 .f32) (harg5 : arg5.IsWhole) (arg6 : Memref sig .tc .vmem S10000x128 .bf16) (harg6 : arg6.IsWhole) (hc : ¬cond0 i)
    (x0 : Vec F S10000x128 .f32) (x1 : Vec F S128x128 .f32) (x2 : Vec F S200x10000 .f32) (x3 : Vec F S200x10000 .f32) (xs : Vec F S10000x128 .bf16) (y : S2x200x128.Idx) :
    ∃ pc ∈ (runLater c i arg1 harg1 arg2 harg2 arg3 harg3 arg4 harg4 arg5 harg5 arg6 harg6 hc x0 x1 x2 x3 xs).1, y ∈ pc.1.set :=
  View.cover_of_tiledL (runLater c i arg1 harg1 arg2 harg2 arg3 harg3 arg4 harg4 arg5 harg5 arg6 harg6 hc x0 x1 x2 x3 xs).1 S1x200x128.size (by sl_kernel_rfl) y

/-! ## What the scratch and the output block hold -/

/-- What the first point leaves in the scratch (the rounded product feat · weight): its pieces read back. -/
def scr (c : Dev nD) : Vec F S10000x128 .bf16 :=
  VS.read (Elt F) (VS.writes (Elt F) VS.junk (runFirst c (grid0.coords t0) (ms0 t0) (hs0 t0) (ms1 t0) (hs1 t0) (ms2 t0) (hs2 t0) (ms3 t0) (hs3 t0) (ms4 t0) (hs4 t0) scM (Memref.isWhole_whole _) ((hcond0 t0).mpr rfl) (iblk m c 0 t0) (iblk m c 1 t0) (iblk m c 2 t0) (iblk m c 3 t0)).2.1)

/-- What point `t` leaves in the output's staging buffer: the two slabs the body stores there, from the point's two
    blocks of adj and the scratch. -/
def out4 (c : Dev nD) (t : Fin cfg0.N) : Vec F S2x200x128 .f32 :=
  if h : t.val = 0 then
    VO.read (Elt F) (VO.writes (Elt F) VO.junk (runFirst c (grid0.coords t) (ms0 t) (hs0 t) (ms1 t) (hs1 t) (ms2 t) (hs2 t) (ms3 t) (hs3 t) (ms4 t) (hs4 t) scM (Memref.isWhole_whole _) ((hcond0 t).mpr h) (iblk m c 0 t) (iblk m c 1 t) (iblk m c 2 t) (iblk m c 3 t)).1)
  else
    VO.read (Elt F) (VO.writes (Elt F) VO.junk (runLater c (grid0.coords t) (ms0 t) (hs0 t) (ms1 t) (hs1 t) (ms2 t) (hs2 t) (ms3 t) (hs3 t) (ms4 t) (hs4 t) scM (Memref.isWhole_whole _) (fun hc => h ((hcond0 t).mp hc)) (iblk m c 0 t) (iblk m c 1 t) (iblk m c 2 t) (iblk m c 3 t) (scr m c)).1)

theorem out4_first (c : Dev nD) (t : Fin cfg0.N) (h : t.val = 0) : out4 m c t =
    VO.read (Elt F) (VO.writes (Elt F) VO.junk (runFirst c (grid0.coords t) (ms0 t) (hs0 t) (ms1 t) (hs1 t) (ms2 t) (hs2 t) (ms3 t) (hs3 t) (ms4 t) (hs4 t) scM (Memref.isWhole_whole _) ((hcond0 t).mpr h) (iblk m c 0 t) (iblk m c 1 t) (iblk m c 2 t) (iblk m c 3 t)).1) := dif_pos h
theorem out4_later (c : Dev nD) (t : Fin cfg0.N) (h : ¬t.val = 0) : out4 m c t =
    VO.read (Elt F) (VO.writes (Elt F) VO.junk (runLater c (grid0.coords t) (ms0 t) (hs0 t) (ms1 t) (hs1 t) (ms2 t) (hs2 t) (ms3 t) (hs3 t) (ms4 t) (hs4 t) scM (Memref.isWhole_whole _) (fun hc => h ((hcond0 t).mp hc)) (iblk m c 0 t) (iblk m c 1 t) (iblk m c 2 t) (iblk m c 3 t) (scr m c)).1) := dif_neg h

/-- The region's invariant before position `n`: the scratch at anything before the first point, at what the first
    point left in it afterwards. -/
def PhiS (c : Dev nD) : ℕ → sProp 𝕄
  | 0 => iprop(∃ d, owns (c : Thread nD τ) scM fullShare d)
  | _ + 1 => owns (c : Thread nD τ) scM fullShare (scr m c)

theorem PhiS_zero (c : Dev nD) (n : ℕ) (h : n = 0) : PhiS m c n = iprop(∃ d, owns (c : Thread nD τ) scM fullShare d) := by
  subst h; rfl
theorem PhiS_succ (c : Dev nD) (n : ℕ) : PhiS m c (n + 1) = owns (c : Thread nD τ) scM fullShare (scr m c) := rfl
theorem PhiS_pos (c : Dev nD) (n : ℕ) (h : n ≠ 0) : PhiS m c n = owns (c : Thread nD τ) scM fullShare (scr m c) := by
  cases n with
  | zero => exact absurd rfl h
  | succ n => rfl

/-! ## The proof data -/

/-- The arrays as the region finds them; after the body each input's buffer at its block, the output's at `out4`;
    the invariant `PhiS`; nothing owed. The two windows on adj hold it at the two halves of the full share. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c t
  Φ t := PhiS m c t.val
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m c).A w = V m c (Pipeline.arrRef spec0 w) := by
  dsimp only [dats]

theorem Phi_castSucc (c : Dev nD) (t : Fin cfg0.N) : (dats m c).Φ t.castSucc = PhiS m c t.val := by
  dsimp only [dats]; simp only [Fin.coe_castSucc]

theorem after_0 (c : Dev nD) (t : Fin cfg0.N) : (dats m c).after 0 t = iblk m c 0 t := by dsimp only [dats]
theorem after_1 (c : Dev nD) (t : Fin cfg0.N) : (dats m c).after 1 t = iblk m c 1 t := by dsimp only [dats]
theorem after_2 (c : Dev nD) (t : Fin cfg0.N) : (dats m c).after 2 t = iblk m c 2 t := by dsimp only [dats]
theorem after_3 (c : Dev nD) (t : Fin cfg0.N) : (dats m c).after 3 t = iblk m c 3 t := by dsimp only [dats]
theorem after_4 (c : Dev nD) (t : Fin cfg0.N) : (dats m c).after 4 t = out4 m c t := by dsimp only [dats]

theorem before0 (c : Dev nD) (t : Fin cfg0.N) (d) : (dats m c).before 0 t d = iblk m c 0 t :=
  before0_of m (dats m c) (A_eq m c 0) (after_0 m c) t d
theorem before1 (c : Dev nD) (t : Fin cfg0.N) (d) : (dats m c).before 1 t d = iblk m c 1 t :=
  before1_of m (dats m c) (A_eq m c 1) (after_1 m c) t d
theorem before2 (c : Dev nD) (t : Fin cfg0.N) (d) : (dats m c).before 2 t d = iblk m c 2 t :=
  before2_of m (dats m c) (A_eq m c 2) (after_2 m c) t d
theorem before3 (c : Dev nD) (t : Fin cfg0.N) (d) : (dats m c).before 3 t d = iblk m c 3 t :=
  before3_of m (dats m c) (A_eq m c 3) (after_3 m c) t d

/-! ## The body obligation -/

def bodyPre (c : Dev nD) (t : Fin cfg0.N) : sProp 𝕄 :=
  iprop((dats m c).Φ t.castSucc ∗ (dats m c).owesAt () t.castSucc
    ∗ (∃ d, owns (c : Thread nD τ) (ms0 t) fullShare ((dats m c).before 0 t d))
    ∗ (∃ d, owns (c : Thread nD τ) (ms1 t) fullShare ((dats m c).before 1 t d))
    ∗ (∃ d, owns (c : Thread nD τ) (ms2 t) fullShare ((dats m c).before 2 t d))
    ∗ (∃ d, owns (c : Thread nD τ) (ms3 t) fullShare ((dats m c).before 3 t d))
    ∗ (∃ d, owns (c : Thread nD τ) (ms4 t) fullShare ((dats m c).before 4 t d)))

def bodyPost (c : Dev nD) (t : Fin cfg0.N) : sProp 𝕄 :=
  iprop((dats m c).Φ t.succ ∗ (dats m c).owesAt () t.succ
    ∗ owns (c : Thread nD τ) (ms0 t) fullShare ((dats m c).after 0 t)
    ∗ owns (c : Thread nD τ) (ms1 t) fullShare ((dats m c).after 1 t)
    ∗ owns (c : Thread nD τ) (ms2 t) fullShare ((dats m c).after 2 t)
    ∗ owns (c : Thread nD τ) (ms3 t) fullShare ((dats m c).after 3 t)
    ∗ owns (c : Thread nD τ) (ms4 t) fullShare ((dats m c).after 4 t))

set_option maxHeartbeats 4800000 in
/-- The body at any point. The inputs' buffers hold their blocks; at the first point the scratch is at anything and
    comes back at `scr`, at a later point it is handed over at `scr` and comes back untouched; the output's buffer
    comes back at `out4`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m c).owesAt () t.succ = (dats m c).owesAt () t.castSucc from rfl]
  rw [show (dats m c).Φ t.succ = PhiS m c (t.val + 1) from rfl, PhiS_succ, Phi_castSucc, after_0, after_1, after_2, after_3, after_4]
  by_cases hz : t.val = 0
  · rw [out4_first m c t hz, PhiS_zero m c _ hz]
    obtain rfl : t = t0 := Fin.ext hz
    unfold scr
    iintro ⟨HS, Ho, ⟨%d0, H0⟩, ⟨%d1, H1⟩, ⟨%d2, H2⟩, ⟨%d3, H3⟩, ⟨%d4, H4⟩⟩
    iapply ((runFirst c (grid0.coords t0) _ _ _ _ _ _ _ _ _ _ _ _ ((hcond0 t0).mpr rfl) (iblk m c 0 t0) (iblk m c 1 t0) (iblk m c 2 t0) (iblk m c 3 t0)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS]
    · unfold owns; iexists _; isplitr
      swap; · iexact HS
      ipureintro; exact View.read_writes_of_cover _ _ _ _ _ (scover_first c _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover4_first c _ _ _ _ _ _ _ _ _ _ _ _ _ _ _ _ _ _)
  · rw [out4_later m c t hz, PhiS_pos m c _ hz]
    iintro ⟨HS, Ho, ⟨%d0, H0⟩, ⟨%d1, H1⟩, ⟨%d2, H2⟩, ⟨%d3, H3⟩, ⟨%d4, H4⟩⟩
    iapply ((runLater c (grid0.coords t) _ _ _ _ _ _ _ _ _ _ _ _ (fun hc => hz ((hcond0 t).mp hc)) (iblk m c 0 t) (iblk m c 1 t) (iblk m c 2 t) (iblk m c 3 t) (scr m c)).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS]; · iexact HS
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover4_later c _ _ _ _ _ _ _ _ _ _ _ _ _ _ _ _ _ _ _)

/-- The library's body obligation, at every point. -/
theorem body_obligation (c : Dev nD) : BodyObligation (dats (F := F) m c) (defs₀ (F := F)) Variants.none () Set.univ := fun t => by
  rw [bigSep_W0, bigSep_W0]
  exact sound_body m c t

end Cert.KernelIdeal.Hand

end
-- ==== Proof.KIRun.lean ====
import proofs.«136367_g3796751090358_cont_8to1_b_758_10_alg».proof.Proof.KIFrame
import Idealize.ShloMosaic.Lib.Pipeline.Regions
import Idealize.ShloMosaic.Lib.Pipeline.Kit
import Idealize.ShloMosaic.Lib.StableHlo

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program as two segments: the region, then the reshape -/

/-- Nothing is prefetched. -/
abbrev adm : (p : Fin 1) → (pcfgs (F := F) p).Adm := fun p => (cfgs p).toPCfg_adm

/-- The one pipeline's proof data. -/
def pdats (p : Fin 1) (c : Dev nD) : Dat τ (Elt F) Unit ℕ (UR sig nD τ) ℕ (Pipeline.pin (pcfgs (F := F)) adm p) c := dats m c

/-- A buffer of core `c` held whole, at share `q` and contents `f`. -/
abbrev pt (c : Dev nD) (b : Ref sig .tc) (q : PosShare TreeShare) (f : b.ty.Contents (Elt F)) : sProp 𝕄 :=
  (Memref.whole b).view.loc (c : Thread nD τ) ↦{q} f

/-- The output array after the last grid point. -/
def fin4 (c : Dev nD) : (Proc.devRef .tc main_v0 : DevRef τ sig).ty.Contents (Elt F) := (dats m c).arrAt 4 cfg0.N

/-- The device's buffers at launch; after the region (the output array rewritten); after the reshape. -/
abbrev V₀ (c : Dev nD) : Valuation τ sig (Elt F) := fun b => m ((c : Dev nD), b)
abbrev V₁ (c : Dev nD) : Valuation τ sig (Elt F) := Function.update (V₀ m c) (Proc.devRef .tc main_v0) (fin4 m c)
abbrev V₂ (c : Dev nD) : Valuation τ sig (Elt F) := StableHlo.after hostOps1 (V₁ m c)

/-- The five unscoped buffers, one by one. -/
theorem uc_eq (c : Dev nD) (W : Valuation τ sig (Elt F)) : (StableHlo.held (c : Thread nD τ) (Pipeline.ucRefs τ sig) W : sProp 𝕄)
    = iprop(pt c main_arg0 fullShare (W (Proc.devRef .tc main_arg0)) ∗ pt c main_arg1 fullShare (W (Proc.devRef .tc main_arg1))
        ∗ pt c main_arg2 fullShare (W (Proc.devRef .tc main_arg2)) ∗ pt c main_v0 fullShare (W (Proc.devRef .tc main_v0))
        ∗ pt c main_v1 fullShare (W (Proc.devRef .tc main_v1))) := by
  unfold StableHlo.held
  rw [bigSep_eq_bigSepL_of_eq [Proc.devRef .tc main_arg0, Proc.devRef .tc main_arg1, Proc.devRef .tc main_arg2, Proc.devRef .tc main_v0, Proc.devRef .tc main_v1] (by decide) (by decide)]
  rfl

/-- The windows' arrays, one by one: feat and weight whole, adj at the two halves of the full share (two windows read
    it), the output whole. -/
theorem arrays_eq (c : Dev nD) (Fa : (w : Fin cfg0.W) → Buf (Elt F) ((cfg0.win w).arr.view.loc (c : Thread nD τ))) :
    ((dats m c).arrays Fa : sProp 𝕄)
      = iprop(pt c main_arg0 fullShare (Fa 0) ∗ pt c main_arg2 fullShare (Fa 1) ∗ pt c main_arg1 fullShare.left (Fa 2)
          ∗ pt c main_arg1 fullShare.right (Fa 3) ∗ pt c main_v0 fullShare (Fa 4)) := by
  unfold Dat.arrays
  rw [bigSep_W0]
  have h0 : (cfg0.win 0).arr.IsWhole := Memref.isWhole_whole _
  have h1 : (cfg0.win 1).arr.IsWhole := Memref.isWhole_whole _
  have h2 : (cfg0.win 2).arr.IsWhole := Memref.isWhole_whole _
  have h3 : (cfg0.win 3).arr.IsWhole := Memref.isWhole_whole _
  have h4 : (cfg0.win 4).arr.IsWhole := Memref.isWhole_whole _
  rw [h0.set_eq_univ, h1.set_eq_univ, h2.set_eq_univ, h4.set_eq_univ]
  rw [show (dats m c).share 0 = fullShare from rfl, show (dats m c).share 1 = fullShare from rfl,
    show (dats m c).share 2 = fullShare.left from rfl, show (dats m c).share 3 = fullShare.right from rfl,
    show (dats m c).share 4 = fullShare from rfl]

theorem bigSep_F0 {M : Type} [URA M] (Φ : Fin 0 → sProp M) : bigSep Finset.univ Φ = (BI.emp : sProp M) :=
  bigSep_univ_eq_bigSepL [] (by decide) (by decide) Φ

theorem prefHeld_none (c : Dev nD) (q) (pf) :
    (Pipeline.prefHeld (Ix := Unit) (Name := ℕ) (U := UR sig nD τ) (Lvl := ℕ) (Val := Elt F) (pcfgs (F := F) 0).pre c q pf : sProp 𝕄) = BI.emp :=
  bigSep_F0 _

theorem owesAt_intro (c : Dev nD) (t : Fin (cfg0.N + 1)) :
    iprop(∃ W, owes (c : Thread nD τ) (0 : CellTallies nD τ sig Unit) W) ⊢ ((dats m c).owesAt () t : sProp 𝕄) := by
  unfold Pipeline.Dat.owesAt Pipeline.owesWithin Pipeline.Dat.bound
  rw [show (dats m c).owed t = 0 from rfl, show (dats m c).recorded t = Set.univ from rfl]
  iintro ⟨%W, HO⟩; iexists W; isplitr; · ipureintro; exact fun _ _ => Or.inl trivial
  iexact HO
theorem owesAt_elim (c : Dev nD) (t : Fin (cfg0.N + 1)) :
    ((dats m c).owesAt () t : sProp 𝕄) ⊢ iprop(∃ W, owes (c : Thread nD τ) (0 : CellTallies nD τ sig Unit) W) := by
  unfold Pipeline.Dat.owesAt Pipeline.owesWithin; rw [show (dats m c).owed t = 0 from rfl]
  iintro ⟨%W, -, HO⟩; iexists W; iexact HO

/-- No core owes anything at launch: no level is assigned. -/
abbrev L : GSem nD τ sig → Finset Unit := fun _ => ∅
abbrev lv : GSem nD τ sig → Unit → ℕ := fun _ _ => 0

/-- What rides along beside the buffers: the core owing nothing. -/
abbrev R (c : Dev nD) : sProp 𝕄 := iprop(∃ W, owes (c : Thread nD τ) (0 : CellTallies nD τ sig Unit) W)

theorem V₁_arg0 (c : Dev nD) : V₁ m c (Proc.devRef .tc main_arg0) = V₀ m c (Proc.devRef .tc main_arg0) := Function.update_of_ne (by decide) ..
theorem V₁_arg1 (c : Dev nD) : V₁ m c (Proc.devRef .tc main_arg1) = V₀ m c (Proc.devRef .tc main_arg1) := Function.update_of_ne (by decide) ..
theorem V₁_arg2 (c : Dev nD) : V₁ m c (Proc.devRef .tc main_arg2) = V₀ m c (Proc.devRef .tc main_arg2) := Function.update_of_ne (by decide) ..
theorem V₁_v1 (c : Dev nD) : V₁ m c (Proc.devRef .tc main_v1) = V₀ m c (Proc.devRef .tc main_v1) := Function.update_of_ne (by decide) ..
theorem V₁_v0 (c : Dev nD) : V₁ m c (Proc.devRef .tc main_v0) = fin4 m c := Function.update_self ..

/-- An input array is never written: it ends as it was found. -/
theorem arrAt_0 (c : Dev nD) (n : ℕ) : (dats m c).arrAt 0 n = V₀ m c (Proc.devRef .tc main_arg0) := ((dats m c).arrAt_in 0 rfl n).trans (A_eq m c 0)
theorem arrAt_1 (c : Dev nD) (n : ℕ) : (dats m c).arrAt 1 n = V₀ m c (Proc.devRef .tc main_arg2) := ((dats m c).arrAt_in 1 rfl n).trans (A_eq m c 1)
theorem arrAt_2 (c : Dev nD) (n : ℕ) : (dats m c).arrAt 2 n = V₀ m c (Proc.devRef .tc main_arg1) := ((dats m c).arrAt_in 2 rfl n).trans (A_eq m c 2)
theorem arrAt_3 (c : Dev nD) (n : ℕ) : (dats m c).arrAt 3 n = V₀ m c (Proc.devRef .tc main_arg1) := ((dats m c).arrAt_in 3 rfl n).trans (A_eq m c 3)

local notation "ℍ" => Pipeline.HostSeg (Name := ℕ) (U := UR sig nD τ) (pcfgs (F := F)) defs₀ Variants.none L lv
local notation "ℝ𝕊" => Pipeline.RegionSeg (pcfgs (F := F)) adm (pdats m) () defs₀ Variants.none L lv

/-- THE REGION, entered from the five buffers at the launch contents: feat, weight and the output array go to their
    windows whole, adj is dealt in two halves to the two windows that read it, the reshape's target bypasses; the
    scratch enters the invariant at anything. At the exit the halves of adj are joined again. -/
def reg0 : ℝ𝕊 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V₀ m c) ∗ R c)
  post c := iprop(StableHlo.held (c : Thread nD τ) (Pipeline.ucRefs τ sig) (V₁ m c) ∗ R c)
  X _ := BI.emp
  Y _ := BI.emp
  Z c := pt c main_v1 fullShare (V₀ m c (Proc.devRef .tc main_v1))
  hentry c := by
    rw [uc_eq, Pipeline.ownSems0_none, prefHeld_none]
    show _ ⊢ |={Set.univ}=> iprop((dats m c).arrays ((dats m c).arrAt · 0) ∗ _)
    rw [arrays_eq]
    iintro ⟨⟨⟨H0, H1, H2, Hv0, Hv1⟩, HO⟩, -, -⟩
    ihave H1' := (pointsTo_share (PosShare.mem_left_op_right fullShare)).1 $$ H1
    icases H1' with ⟨H1l, H1r⟩
    imodintro
    isplitl [H0 H2 H1l H1r Hv0]
    · isplitl [H0]; · iexact H0
      isplitl [H2]; · iexact H2
      isplitl [H1l]; · iexact H1l
      isplitl [H1r]; · iexact H1r
      iexact Hv0
    isplitr; · iempintro
    isplitl [HO]; · iapply (owesAt_intro m c 0); iexact HO
    isplitr; · iempintro
    iexact Hv1
  hin c := by
    rw [scopedRest_scr]
    show _ ⊢ PhiS m c 0
    rw [PhiS_zero m c 0 rfl]
    iintro ⟨-, -, H⟩; iexact H
  hout c := by
    rw [Pipeline.ownSems0_none, scopedRest_scr]
    show PhiS m c (Fin.last cfg0.N).val ⊢ _
    rw [PhiS_pos m c _ (by rw [Fin.val_last]; have : cfg0.N = 25 := N_0; omega)]
    iintro H
    isplitr; · iempintro
    isplitr; · iempintro
    iexists _; iexact H
  hexit c := by
    rw [uc_eq]
    show iprop((dats m c).arrays ((dats m c).arrAt · cfg0.N) ∗ (dats m c).owesAt () (Fin.last cfg0.N) ∗ _) ⊢ _
    rw [arrays_eq, arrAt_0, arrAt_1, arrAt_2, arrAt_3, V₁_arg0, V₁_arg1, V₁_arg2, V₁_v0, V₁_v1]
    iintro ⟨⟨H0, H2, H1l, H1r, Hv0⟩, HO, -, Hv1⟩
    ihave H1 := (pointsTo_share (PosShare.mem_left_op_right fullShare)).2 $$ [H1l H1r]
    · isplitl [H1l] <;> iassumption
    imodintro
    isplitr [HO]
    · isplitl [H0]; · iexact H0
      isplitl [H1]; · iexact H1
      isplitl [H2]; · iexact H2
      isplitl [Hv0]; · iexact Hv0
      iexact Hv1
    iapply (owesAt_elim m c _); iexact HO

theorem ops_sub : ∀ op ∈ (hostOps1 : List (HloOp τ sig (Elt F))), op.bufs ⊆ Pipeline.ucRefs τ sig := fun op h =>
  Pipeline.sub_ucRefs op ((List.forall_iff_forall_mem.mp hostOps1_sub) op h)
theorem ops_fresh : ∀ op ∈ (hostOps1 : List (HloOp τ sig (Elt F))), op.fresh = ∅ := fun op h => by
  simp only [hostOps1, List.mem_singleton] at h; subst h; rfl

/-- THE RESHAPE, over the five buffers as the region left them. -/
def seg1 : ℍ := Pipeline.HostSeg.ofOps _ _ _ _ _ (Pipeline.ucRefs τ sig) hostOps1 ops_sub ops_fresh (V₁ m) R

def segs : List (Pipeline.Seg (pcfgs (F := F)) adm (pdats m) () defs₀ Variants.none L lv) := [.region (reg0 m), .host (seg1 m)]

theorem main_eq (c : Dev nD) : main (F := F) c = Pipeline.Seg.run (segs m) :=
  main_segs adm (pdats m) () Variants.none L lv (seg1 m) (reg0 m) rfl c

/-! ## The launch -/

/-- What a final state's memory holds on core `c`. -/
def QY (c : Dev nD) (s : MemSt nD τ sig (Elt F)) : Prop :=
  s.mem ((Memref.whole main_arg0).view.loc (c : Thread nD τ)) = V₂ m c (Proc.devRef .tc main_arg0)
    ∧ s.mem ((Memref.whole main_arg1).view.loc (c : Thread nD τ)) = V₂ m c (Proc.devRef .tc main_arg1)
    ∧ s.mem ((Memref.whole main_arg2).view.loc (c : Thread nD τ)) = V₂ m c (Proc.devRef .tc main_arg2)
    ∧ s.mem ((Memref.whole main_v1).view.loc (c : Thread nD τ)) = V₂ m c (Proc.devRef .tc main_v1)

theorem V₂_arg0 (c : Dev nD) : V₂ m c (Proc.devRef .tc main_arg0) = m ((c : Thread nD τ).loc main_arg0) := by
  show StableHlo.after hostOps1 (V₁ m c) (Proc.devRef .tc main_arg0) = _
  have hne : (main_arg0 : Ref sig .tc) ≠ main_v1 := by decide
  rw [StableHlo.after_cons, StableHlo.after_nil, StableHlo.reshape_result_ne (h := hne), V₁_arg0]
theorem V₂_arg1 (c : Dev nD) : V₂ m c (Proc.devRef .tc main_arg1) = m ((c : Thread nD τ).loc main_arg1) := by
  show StableHlo.after hostOps1 (V₁ m c) (Proc.devRef .tc main_arg1) = _
  have hne : (main_arg1 : Ref sig .tc) ≠ main_v1 := by decide
  rw [StableHlo.after_cons, StableHlo.after_nil, StableHlo.reshape_result_ne (h := hne), V₁_arg1]
theorem V₂_arg2 (c : Dev nD) : V₂ m c (Proc.devRef .tc main_arg2) = m ((c : Thread nD τ).loc main_arg2) := by
  show StableHlo.after hostOps1 (V₁ m c) (Proc.devRef .tc main_arg2) = _
  have hne : (main_arg2 : Ref sig .tc) ≠ main_v1 := by decide
  rw [StableHlo.after_cons, StableHlo.after_nil, StableHlo.reshape_result_ne (h := hne), V₁_arg2]
/-- The result: the output array after the last point, read at the reshaped index. -/
theorem V₂_v1 (c : Dev nD) : V₂ m c (Proc.devRef .tc main_v1) = fun i => shapeCast S10000x128 (fin4 m c) shapeCasts_S2x5000x128_S10000x128 i := by
  show StableHlo.after hostOps1 (V₁ m c) (Proc.devRef .tc main_v1) = _
  rw [StableHlo.after_cons, StableHlo.after_nil, StableHlo.reshape_result', V₁_v0]
  rfl

set_option backward.isDefEq.respectTransparency.types false in
/-- THE RUN: at any float values, from any memory with zero counters, every weakly fair execution of the program
    terminates, the three argument arrays end as they were, and the result array ends at the reshaped output of the
    region. -/
theorem run_main : θ_run defs (onTc (τ := τ) (main (F := F))) ⟨m, fun _ => 0, ρ⟩ (fun r => ∀ c : Dev nD,
    r.2.mem ((c : Thread nD τ).loc main_v1) = (fun i => shapeCast S10000x128 (fin4 m c) shapeCasts_S2x5000x128_S10000x128 i)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  Pipeline.θ_run_regions_kit (pcfgs (F := F)) adm (pdats m) () cellOf_inj emb₁ defs₀ Variants.none L lv m ρ main (segs m) (fun c Q => by rw [main_eq m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu; imodintro
      isplitl [Hu]; · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (V₂ m c))
    (hch := ⟨fun c => .rfl, fun c => .rfl, fun c => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := QY m)
    (hfin := fun c s' => by
      rw [uc_eq]
      iintro ⟨⟨H0, H1, H2, Hv0, Hv1⟩, HSI⟩
      icombine HSI H0 gives %h0
      icombine HSI H1 gives %h1
      icombine HSI H2 gives %h2
      icombine HSI Hv1 gives %hv1
      imodintro
      isplitr; · ipureintro; exact ⟨Buf.eq_of_forall_mem_univ h0, Buf.eq_of_forall_mem_univ h1, Buf.eq_of_forall_mem_univ h2, Buf.eq_of_forall_mem_univ hv1⟩
      iexact HSI)
    (hQ := fun s h c => by
      obtain ⟨h0, h1, h2, hv1⟩ := h c
      rw [V₂_arg0] at h0; rw [V₂_arg1] at h1; rw [V₂_arg2] at h2; rw [V₂_v1] at hv1
      exact ⟨hv1, h0, h1, h2⟩)

end Cert.KernelIdeal.Hand

end
-- ==== Proof.Spec.lean ====
import Idealize.ShloMosaic.PureOps.Ideal
import Idealize.ShloMosaic.Lib.ValueIdx

/-!
The mathematical content of the certificate, with no program in sight.

For a feature matrix `feat` (10000 × 128), a weight matrix `w` (128 × 128) and an adjacency matrix `adj`
(10000 × 10000), all with entries in the extended reals:

* `XW feat w` is the matrix product `feat · w`: entry (r, c) is `∑ j, feat (r, j) * w (j, c)`;
* `G feat adj w` is `adj · (feat · w)`: entry (r, c) is `∑ k, adj (r, k) * XW feat w (k, c)`.

The grouping is `adj · (feat · w)`, the inner product computed first. Both sides of the certificate compute
exactly this grouping, so no rearrangement of sums (and hence no finiteness of the entries) is involved.
-/

noncomputable section

open scoped BigOperators

namespace Cert.Spec

open Idealize.ShloMosaic Idealize.ShloMosaic.ValueIdx

/-- The shape of the feature matrix and of the result: 10000 rows, 128 columns. -/
abbrev S10000x128 : Shape := ⟨2, ![10000, 128]⟩
/-- The shape of the adjacency matrix. -/
abbrev S10000x10000 : Shape := ⟨2, ![10000, 10000]⟩
/-- The shape of the weight matrix. -/
abbrev S128x128 : Shape := ⟨2, ![128, 128]⟩

/-- The inner product `feat · w`: entry `(r, c)` is the sum over `j` of `feat (r, j) * w (j, c)`. -/
def XW (feat : S10000x128.Idx → EReal) (w : S128x128.Idx → EReal) : S10000x128.Idx → EReal :=
  fun i => ∑ j : Fin 128, feat (ix2 (n0 := 10000) (n1 := 128) (i 0) j) * w (ix2 (n0 := 128) (n1 := 128) j (i 1))

/-- The result `adj · (feat · w)`: entry `(r, c)` is the sum over `k` of `adj (r, k) * (feat · w) (k, c)`. -/
def G (feat : S10000x128.Idx → EReal) (adj : S10000x10000.Idx → EReal) (w : S128x128.Idx → EReal) :
    S10000x128.Idx → EReal :=
  fun i => ∑ k : Fin 10000, adj (ix2 (n0 := 10000) (n1 := 10000) (i 0) k) * XW feat w (ix2 (n0 := 10000) (n1 := 128) k (i 1))

/-- `feat · w` at the entry `(r, c)`. -/
theorem XW_ix2 (feat : S10000x128.Idx → EReal) (w : S128x128.Idx → EReal) (r : Fin 10000) (c : Fin 128) :
    XW feat w (ix2 r c) = ∑ j : Fin 128, feat (ix2 r j) * w (ix2 j c) := rfl

/-- `adj · (feat · w)` at the entry `(r, c)`. -/
theorem G_ix2 (feat : S10000x128.Idx → EReal) (adj : S10000x10000.Idx → EReal) (w : S128x128.Idx → EReal)
    (r : Fin 10000) (c : Fin 128) :
    G feat adj w (ix2 r c) = ∑ k : Fin 10000, adj (ix2 r k) * XW feat w (ix2 k c) := rfl

end Cert.Spec

end
-- ==== Proof.RefValue.lean ====
import proofs.«136367_g3796751090358_cont_8to1_b_758_10_alg».proof.Defs
import proofs.«136367_g3796751090358_cont_8to1_b_758_10_alg».proof.Proof.Gen.ReferenceIdeal.Read
import proofs.«136367_g3796751090358_cont_8to1_b_758_10_alg».proof.Proof.Spec
import Idealize.ShloMosaic.Lib.ValueIdx
import Idealize.ShloMosaic.PureOps.Ideal.Laws

/-!
The reference program computes `adj · (feat · w)` with two `dot_general`s, the inner one first. Read at an
entry `(r, c)`, the outer one is `∑ k, adj (r, k) * inner (k, c)` and the inner one is
`∑ j, feat (k, j) * w (j, c)`: entry by entry this is the specification's `G`, with the same grouping, so the
two agree by unfolding both sums and matching the operand indices.
-/

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-- The outer product's left operand index at `(r, c)`, `k` is `(r, k)`. -/
theorem lidx_outer (i : S10000x128.Idx) (k : Fin 10000) :
    Read.lidx_main_v1 i k = ix2 (n0 := 10000) (n1 := 10000) (i 0) k :=
  funext fun a => Fin.ext (by match a with | ⟨0, _⟩ => rfl | ⟨1, _⟩ => rfl)

/-- The outer product's right operand index at `(r, c)`, `k` is `(k, c)`. -/
theorem ridx_outer (i : S10000x128.Idx) (k : Fin 10000) :
    Read.ridx_main_v1 i k = ix2 (n0 := 10000) (n1 := 128) k (i 1) :=
  funext fun a => Fin.ext (by match a with | ⟨0, _⟩ => rfl | ⟨1, _⟩ => rfl)

/-- The inner product's left operand index at `(r, c)`, `j` is `(r, j)`. -/
theorem lidx_inner (i : S10000x128.Idx) (j : Fin 128) :
    Read.lidx_main_v0 i j = ix2 (n0 := 10000) (n1 := 128) (i 0) j :=
  funext fun a => Fin.ext (by match a with | ⟨0, _⟩ => rfl | ⟨1, _⟩ => rfl)

/-- The inner product's right operand index at `(r, c)`, `j` is `(j, c)`. -/
theorem ridx_inner (i : S10000x128.Idx) (j : Fin 128) :
    Read.ridx_main_v0 i j = ix2 (n0 := 128) (n1 := 128) j (i 1) :=
  funext fun a => Fin.ext (by match a with | ⟨0, _⟩ => rfl | ⟨1, _⟩ => rfl)

/-- The reference's value is `adj · (feat · w)`, entry by entry. -/
theorem ref_eq_G (feat : (⟨S10000x128, .f32⟩ : BufTy).Contents (Elt Ideal))
    (adj : (⟨S10000x10000, .f32⟩ : BufTy).Contents (Elt Ideal))
    (w : (⟨S128x128, .f32⟩ : BufTy).Contents (Elt Ideal)) :
    Host.dotGeneral (F := Ideal) (φ₁ := .f32) (φ₂ := .f32) dot_S10000x10000_S10000x128_S10000x128_1_0_0_1_n_n none adj
        (Host.dotGeneral (F := Ideal) (φ₁ := .f32) (φ₂ := .f32) dot_S10000x128_S128x128_S10000x128_1_0_0_1_n_n none feat w)
      = Cert.Spec.G feat adj w := by
  funext i
  rw [Read.val_main_v1_eq, Read.val_main_v1_apply]
  show _ = ∑ k : Fin 10000, adj (ix2 (n0 := 10000) (n1 := 10000) (i 0) k)
      * Cert.Spec.XW feat w (ix2 (n0 := 10000) (n1 := 128) k (i 1))
  refine Finset.sum_congr rfl fun k _ => ?_
  rw [lidx_outer, ridx_outer, Read.val_main_v0_apply]
  refine congrArg (adj (ix2 (n0 := 10000) (n1 := 10000) (i 0) k) * ·) ?_
  refine Finset.sum_congr rfl fun j _ => ?_
  rw [lidx_inner, ridx_inner]

end Cert.ReferenceIdeal.RefValue

end
-- ==== Proof.KIValuePieces.lean ====
import proofs.«136367_g3796751090358_cont_8to1_b_758_10_alg».proof.Proof.KIFrame
import Idealize.ShloMosaic.Lib.Pipeline.Value
import Idealize.ShloMosaic.Lib.ValueIdx
import Idealize.ShloMosaic.Lib.ValueLayout

/-!
What the kernel body's stores leave in the scratch and in the output block, as values of the blocks the body
loaded, and how a block filled by two slabs reads at an entry.

At the first grid point the body stores the product of the feature and weight blocks into the scratch (one store
of the whole buffer), reads it back, and stores two slabs into the output block: rows of the first adjacency block
times that product, then rows of the second adjacency block times it. At a later point the scratch is only read.
-/

set_option maxRecDepth 16384

noncomputable section

open scoped BigOperators

namespace Cert.KernelIdeal.HandValue

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen Cert.KernelIdeal.Hand

variable {F : FTy → Type} [FloatOps F]

/-- The zero offsets of a rank-2 rectangle, as the constant function. -/
theorem hz2 : (![0, 0] : Fin 2 → Nat) = fun _ => 0 := funext fun a => by fin_cases a <;> rfl

/-! ## What the body's stores leave, as values of the blocks it loaded -/

/-- The scratch after the first point: one store of the whole buffer, whose payload is the first stored value
    of the feature and weight blocks. -/
theorem scr_piece (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S2x200x128 .f32) (harg5 : arg5.IsWhole) (arg6 : Memref sig .tc .vmem S10000x128 .bf16) (harg6 : arg6.IsWhole) (hc : cond0 i) (x0 : Vec F S10000x128 .f32) (x1 : Vec F S128x128 .f32) (x2 : Vec F S200x10000 .f32) (x3 : Vec F S200x10000 .f32)
    (v : View sig .tc .vmem S10000x128 .bf16) (f : v.ty.Contents (Elt F)) :
    v.read (Elt F) (v.writes (Elt F) f (runFirst c i arg1 harg1 arg2 harg2 arg3 harg3 arg4 harg4 arg5 harg5 arg6 harg6 hc x0 x1 x2 x3).2.1) = k0_pay1 x0 x1 := by
  rw [View.read_writes_eq_canon _ _ _ (scover_first c i arg1 harg1 arg2 harg2 arg3 harg3 arg4 harg4 arg5 harg5 arg6 harg6 hc x0 x1 x2 x3)]
  unfold runFirst
  dsimp only
  sl_unfold_words
  rw [View.canon_unit_zero hz2]
  simp only [View.readAt_eq_ld, harg1.read_unread, harg2.read_unread, View.ld_unit_zero (S := S10000x128) hz2,
    View.ld_unit_zero (S := S128x128) hz2]

/-- The output block after the first point: two slabs, the second stored last; each is a block of the adjacency
    matrix times the product just stored in the scratch and read back. -/
theorem out_first_canon (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S2x200x128 .f32) (harg5 : arg5.IsWhole) (arg6 : Memref sig .tc .vmem S10000x128 .bf16) (harg6 : arg6.IsWhole) (hc : cond0 i) (x0 : Vec F S10000x128 .f32) (x1 : Vec F S128x128 .f32) (x2 : Vec F S200x10000 .f32) (x3 : Vec F S200x10000 .f32)
    (v : View sig .tc .vmem S2x200x128 .f32) (f : v.ty.Contents (Elt F)) :
    v.read (Elt F) (v.writes (Elt F) f (runFirst c i arg1 harg1 arg2 harg2 arg3 harg3 arg4 harg4 arg5 harg5 arg6 harg6 hc x0 x1 x2 x3).1)
      = View.canon [⟨Rect.unit ![1, 0, 0] ![1, 200, 128] inb_S2x200x128_S1x200x128_1_0_0, k0_pay3 x3 (k0_pay1 x0 x1)⟩,
          ⟨Rect.unit ![0, 0, 0] ![1, 200, 128] inb_S2x200x128_S1x200x128_0_0_0, k0_pay2 x2 (k0_pay1 x0 x1)⟩] := by
  rw [View.read_writes_eq_canon _ _ _ (cover4_first c i arg1 harg1 arg2 harg2 arg3 harg3 arg4 harg4 arg5 harg5 arg6 harg6 hc x0 x1 x2 x3)]
  unfold runFirst
  dsimp only
  sl_unfold_words
  rw [View.readCov_unit_zero (S := S10000x128) _ hz2]
  simp only [View.readAt_eq_ld, harg1.read_unread, harg2.read_unread, harg3.read_unread, harg4.read_unread,
    View.ld_unit_zero (S := S10000x128) hz2, View.ld_unit_zero (S := S128x128) hz2, View.ld_unit_zero (S := S200x10000) hz2]

/-- The output block after a later point: the same two slabs, over the scratch as the first point left it. -/
theorem out_later_canon (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S2x200x128 .f32) (harg5 : arg5.IsWhole) (arg6 : Memref sig .tc .vmem S10000x128 .bf16) (harg6 : arg6.IsWhole) (hc : ¬cond0 i) (x0 : Vec F S10000x128 .f32) (x1 : Vec F S128x128 .f32) (x2 : Vec F S200x10000 .f32) (x3 : Vec F S200x10000 .f32) (xs : Vec F S10000x128 .bf16)
    (v : View sig .tc .vmem S2x200x128 .f32) (f : v.ty.Contents (Elt F)) :
    v.read (Elt F) (v.writes (Elt F) f (runLater c i arg1 harg1 arg2 harg2 arg3 harg3 arg4 harg4 arg5 harg5 arg6 harg6 hc x0 x1 x2 x3 xs).1)
      = View.canon [⟨Rect.unit ![1, 0, 0] ![1, 200, 128] inb_S2x200x128_S1x200x128_1_0_0, k0_pay3 x3 xs⟩,
          ⟨Rect.unit ![0, 0, 0] ![1, 200, 128] inb_S2x200x128_S1x200x128_0_0_0, k0_pay2 x2 xs⟩] := by
  rw [View.read_writes_eq_canon _ _ _ (cover4_later c i arg1 harg1 arg2 harg2 arg3 harg3 arg4 harg4 arg5 harg5 arg6 harg6 hc x0 x1 x2 x3 xs)]
  unfold runLater
  dsimp only
  sl_unfold_words
  simp only [View.readAt_eq_ld, harg3.read_unread, harg4.read_unread, harg6.read_unread,
    View.ld_unit_zero (S := S10000x128) hz2, View.ld_unit_zero (S := S200x10000) hz2]

/-! ## Two slabs read at an entry -/

/-- A [2, 200, 128] block filled by two [1, 200, 128] slabs reads, at `(u, r, n)`, slab `u` at `(0, r, n)`. -/
theorem canon_two_slabs {Val : EltTy → Type} [∀ e, Nonempty (Val e)]
    (inb1 : ∀ a, (![1, 0, 0] : Fin 3 → Nat) a + (![1, 200, 128] : Fin 3 → Nat) a ≤ S2x200x128.size a)
    (inb0 : ∀ a, (![0, 0, 0] : Fin 3 → Nat) a + (![1, 200, 128] : Fin 3 → Nat) a ≤ S2x200x128.size a)
    (p1 p0 : S1x200x128.Idx → Val .f32) (u : Fin 2) (r : Fin 200) (n : Fin 128) :
    View.canon [(⟨(Rect.unit (s := S2x200x128) ![1, 0, 0] ![1, 200, 128] inb1), p1⟩ : View.Piece Val S2x200x128 .f32), ⟨(Rect.unit (s := S2x200x128) ![0, 0, 0] ![1, 200, 128] inb0), p0⟩] (ix3 u r n)
      = if u.val = 0 then p0 (ix3 (0 : Fin 1) r n) else p1 (ix3 (0 : Fin 1) r n) := by
  by_cases hu : u.val = 0
  · rw [if_pos hu]
    have hnot : ix3 u r n ∉ (Rect.unit (s := S2x200x128) ![1, 0, 0] ![1, 200, 128] inb1).set := by
      intro hm
      have h0 := (Rect.mem_set_unit.mp hm 0).1
      have h0' : 1 ≤ u.val := h0
      omega
    have he : ix3 u r n = (Rect.unit (s := S2x200x128) ![0, 0, 0] ![1, 200, 128] inb0).emb (ix3 (0 : Fin 1) r n) :=
      funext fun a => Fin.ext (by
        match a with
        | ⟨0, _⟩ => show u.val = 0 + 1 * 0; omega
        | ⟨1, _⟩ => show r.val = 0 + 1 * r.val; omega
        | ⟨2, _⟩ => show n.val = 0 + 1 * n.val; omega)
    refine (View.canon_cons_of_not_mem (⟨(Rect.unit (s := S2x200x128) ![1, 0, 0] ![1, 200, 128] inb1), p1⟩ : View.Piece Val S2x200x128 .f32) [⟨(Rect.unit (s := S2x200x128) ![0, 0, 0] ![1, 200, 128] inb0), p0⟩] hnot).trans ?_
    refine (congrArg (View.canon [(⟨(Rect.unit (s := S2x200x128) ![0, 0, 0] ![1, 200, 128] inb0), p0⟩ : View.Piece Val S2x200x128 .f32)]) he).trans ?_
    exact View.canon_cons_emb (Rect.unit (s := S2x200x128) ![0, 0, 0] ![1, 200, 128] inb0) p0 [] (ix3 (0 : Fin 1) r n)
  · rw [if_neg hu]
    have hu1 : u.val = 1 := by have := u.isLt; omega
    have he : ix3 u r n = (Rect.unit (s := S2x200x128) ![1, 0, 0] ![1, 200, 128] inb1).emb (ix3 (0 : Fin 1) r n) :=
      funext fun a => Fin.ext (by
        match a with
        | ⟨0, _⟩ => show u.val = 1 + 1 * 0; omega
        | ⟨1, _⟩ => show r.val = 0 + 1 * r.val; omega
        | ⟨2, _⟩ => show n.val = 0 + 1 * n.val; omega)
    refine (congrArg (View.canon [(⟨(Rect.unit (s := S2x200x128) ![1, 0, 0] ![1, 200, 128] inb1), p1⟩ : View.Piece Val S2x200x128 .f32), ⟨(Rect.unit (s := S2x200x128) ![0, 0, 0] ![1, 200, 128] inb0), p0⟩]) he).trans ?_
    exact View.canon_cons_emb (Rect.unit (s := S2x200x128) ![1, 0, 0] ![1, 200, 128] inb1) p1 [⟨(Rect.unit (s := S2x200x128) ![0, 0, 0] ![1, 200, 128] inb0), p0⟩] (ix3 (0 : Fin 1) r n)

end Cert.KernelIdeal.HandValue

end
-- ==== Proof.KernelPay.lean ====
import proofs.«136367_g3796751090358_cont_8to1_b_758_10_alg».proof.Proof.Gen.KernelIdeal.Skeleton
import proofs.«136367_g3796751090358_cont_8to1_b_758_10_alg».proof.Proof.Spec
import Idealize.ShloMosaic.Lib.ValueIdx
import Idealize.ShloMosaic.Lib.ValueLayout
import Idealize.ShloMosaic.Lib.Pipeline.Value
import Idealize.ShloMosaic.PureOps.Ideal.Laws

/-!
The three values the kernel body stores, read at an entry.

With extended-real entries a change of float format is the identity and a matrix product into a zero accumulator
is the plain sum of products over the contracted axis. So

* the first stored value is `feat · w`: at `(r, c)` it is `∑ j, feat (r, j) * w (j, c)`;
* the second and third are a 200-row block `a` of the adjacency matrix times the stored product `xw`, laid out
  with a leading axis of size one: at `(0, r, n)` each is `∑ k, a (r, k) * xw (k, n)`.
-/

noncomputable section

open scoped BigOperators

namespace Cert.KernelIdeal.Pay

open Cert.KernelIdeal Idealize.ShloMosaic Idealize.SL.Sem Idealize.ShloMosaic.ValueIdx

/-- A product of a 10000 × 128 matrix by a 128 × 128 matrix into a zero accumulator, at the entry `(r, c)`:
    the sum over the contracted axis. -/
theorem matmul_feat_w (x : FVec Ideal S10000x128 .f32) (y : FVec Ideal S128x128 .f32) (r : Fin 10000) (c : Fin 128) :
    matmul (F := Ideal) dot_S10000x128_S128x128_S10000x128_1_0_0_1_n_n none x y (constant (F := Ideal) S10000x128 .f32 0x00000000#32) (ix2 r c)
      = ∑ j : Fin 128, x (ix2 r j) * y (ix2 j c) := by
  simp only [matmul]
  rw [Ideal.matmul_constant_zero_apply, ← Equiv.sum_comp (contrEquiv1 dot_S10000x128_S128x128_S10000x128_1_0_0_1_n_n 128 rfl rfl).symm]
  refine Finset.sum_congr rfl fun j _ => ?_
  have hj := contrEquiv1_symm_val dot_S10000x128_S128x128_S10000x128_1_0_0_1_n_n 128 rfl rfl j
  have el : dot_S10000x128_S128x128_S10000x128_1_0_0_1_n_n.lhsIdx (ix2 r c) ((contrEquiv1 dot_S10000x128_S128x128_S10000x128_1_0_0_1_n_n 128 rfl rfl).symm j) = ix2 r j :=
    funext fun a => Fin.ext (by
      match a with
      | ⟨0, _⟩ =>
        show (dot_S10000x128_S128x128_S10000x128_1_0_0_1_n_n.lhsIdx (ix2 r c) _ 0).val = r.val
        unfold DotDims.lhsIdx
        rw [dif_neg (show ¬(0 : Fin S10000x128.rank) ∈ dot_S10000x128_S128x128_S10000x128_1_0_0_1_n_n.lhsBatch by decide),
          dif_pos (show (0 : Fin S10000x128.rank) ∈ dot_S10000x128_S128x128_S10000x128_1_0_0_1_n_n.lhsNonContracting by decide)]
        rfl
      | ⟨1, _⟩ => exact (dot_S10000x128_S128x128_S10000x128_1_0_0_1_n_n.lhsIdx_val_of_single rfl (ix2 r c) _).trans hj)
  have er : dot_S10000x128_S128x128_S10000x128_1_0_0_1_n_n.rhsIdx (ix2 r c) ((contrEquiv1 dot_S10000x128_S128x128_S10000x128_1_0_0_1_n_n 128 rfl rfl).symm j) = ix2 j c :=
    funext fun a => Fin.ext (by
      match a with
      | ⟨0, _⟩ => exact (dot_S10000x128_S128x128_S10000x128_1_0_0_1_n_n.rhsIdx_val_of_single rfl (ix2 r c) _).trans hj
      | ⟨1, _⟩ =>
        show (dot_S10000x128_S128x128_S10000x128_1_0_0_1_n_n.rhsIdx (ix2 r c) _ 1).val = c.val
        unfold DotDims.rhsIdx
        rw [dif_neg (show ¬(1 : Fin S128x128.rank) ∈ dot_S10000x128_S128x128_S10000x128_1_0_0_1_n_n.rhsBatch by decide),
          dif_pos (show (1 : Fin S128x128.rank) ∈ dot_S10000x128_S128x128_S10000x128_1_0_0_1_n_n.rhsNonContracting by decide)]
        rfl)
  rw [el, er]

/-- A product of a 200 × 10000 block by a 10000 × 128 matrix into a zero accumulator, at the entry `(r, n)`:
    the sum over the contracted axis. -/
theorem matmul_block (x : FVec Ideal S200x10000 .bf16) (y : FVec Ideal S10000x128 .bf16) (r : Fin 200) (n : Fin 128) :
    matmul (F := Ideal) dot_S200x10000_S10000x128_S200x128_1_0_0_1_n_n none x y (constant (F := Ideal) S200x128 .f32 0x00000000#32) (ix2 r n)
      = ∑ k : Fin 10000, x (ix2 r k) * y (ix2 k n) := by
  simp only [matmul]
  rw [Ideal.matmul_constant_zero_apply, ← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx (ix2 r n) ((contrEquiv1 dot_S200x10000_S10000x128_S200x128_1_0_0_1_n_n 10000 rfl rfl).symm k) = ix2 r k :=
    funext fun a => Fin.ext (by
      match a with
      | ⟨0, _⟩ =>
        show (dot_S200x10000_S10000x128_S200x128_1_0_0_1_n_n.lhsIdx (ix2 r n) _ 0).val = r.val
        unfold DotDims.lhsIdx
        rw [dif_neg (show ¬(0 : Fin S200x10000.rank) ∈ dot_S200x10000_S10000x128_S200x128_1_0_0_1_n_n.lhsBatch by decide),
          dif_pos (show (0 : Fin S200x10000.rank) ∈ dot_S200x10000_S10000x128_S200x128_1_0_0_1_n_n.lhsNonContracting by decide)]
        rfl
      | ⟨1, _⟩ => exact (dot_S200x10000_S10000x128_S200x128_1_0_0_1_n_n.lhsIdx_val_of_single rfl (ix2 r n) _).trans hk)
  have er : dot_S200x10000_S10000x128_S200x128_1_0_0_1_n_n.rhsIdx (ix2 r n) ((contrEquiv1 dot_S200x10000_S10000x128_S200x128_1_0_0_1_n_n 10000 rfl rfl).symm k) = ix2 k n :=
    funext fun a => Fin.ext (by
      match a with
      | ⟨0, _⟩ => exact (dot_S200x10000_S10000x128_S200x128_1_0_0_1_n_n.rhsIdx_val_of_single rfl (ix2 r n) _).trans hk
      | ⟨1, _⟩ =>
        show (dot_S200x10000_S10000x128_S200x128_1_0_0_1_n_n.rhsIdx (ix2 r n) _ 1).val = n.val
        unfold DotDims.rhsIdx
        rw [dif_neg (show ¬(1 : Fin S10000x128.rank) ∈ dot_S200x10000_S10000x128_S200x128_1_0_0_1_n_n.rhsBatch by decide),
          dif_pos (show (1 : Fin S10000x128.rank) ∈ dot_S200x10000_S10000x128_S200x128_1_0_0_1_n_n.rhsNonContracting by decide)]
        rfl)
  rw [el, er]

/-- The first stored value is `feat · w`, entry by entry. -/
theorem pay1_apply (feat : Vec Ideal S10000x128 .f32) (w : Vec Ideal S128x128 .f32) (i : S10000x128.Idx) :
    Gen.k0_pay1 (F := Ideal) feat w i = Cert.Spec.XW feat w i := by
  obtain ⟨r, c, rfl⟩ : ∃ (r : Fin 10000) (c : Fin 128), i = ix2 r c := ⟨i 0, i 1, eq_ix2 i⟩
  unfold Gen.k0_pay1
  rw [shapeCast_self, truncf_apply, matmul_feat_w]
  rfl

/-- The second stored value at `(0, r, n)`: row `r` of the block times column `n` of the stored product. -/
theorem pay2_apply (a : Vec Ideal S200x10000 .f32) (xw : Vec Ideal S10000x128 .bf16) (r : Fin 200) (n : Fin 128) :
    Gen.k0_pay2 (F := Ideal) a xw (ix3 (0 : Fin 1) r n) = ∑ k : Fin 10000, a (ix2 r k) * xw (ix2 k n) := by
  unfold Gen.k0_pay2
  rw [shapeCast_ab_1ab_apply, matmul_block]
  rfl

/-- The third stored value at `(0, r, n)`: the same product for the second block. -/
theorem pay3_apply (a : Vec Ideal S200x10000 .f32) (xw : Vec Ideal S10000x128 .bf16) (r : Fin 200) (n : Fin 128) :
    Gen.k0_pay3 (F := Ideal) a xw (ix3 (0 : Fin 1) r n) = ∑ k : Fin 10000, a (ix2 r k) * xw (ix2 k n) := by
  unfold Gen.k0_pay3
  rw [shapeCast_ab_1ab_apply, matmul_block]
  rfl

end Cert.KernelIdeal.Pay

end
-- ==== Proof.KIValueOut.lean ====
import proofs.«136367_g3796751090358_cont_8to1_b_758_10_alg».proof.Proof.KIFrame
import proofs.«136367_g3796751090358_cont_8to1_b_758_10_alg».proof.Proof.KIValuePieces
import proofs.«136367_g3796751090358_cont_8to1_b_758_10_alg».proof.Proof.KernelPay
import proofs.«136367_g3796751090358_cont_8to1_b_758_10_alg».proof.Proof.Spec
import Idealize.ShloMosaic.Lib.Pipeline.Value
import Idealize.ShloMosaic.Lib.ValueIdx
import Idealize.ShloMosaic.Lib.ValueLayout

/-!
The values the kernel leaves, at the extended reals.

Each window's block, read off its array: the feature and weight windows hold the whole matrices at every grid
point; the two adjacency windows hold, at point `t`, rows `200 t … 200 t + 199` and `5000 + 200 t … 5000 + 200 t + 199`
of the adjacency matrix. So

* the scratch after the first point is the product `feat · w`;
* the output block after point `t`, at `(u, r, n)`, is `∑ k, adj (u * 5000 + 200 t + r, k) * (feat · w) (k, n)`:
  entry `(u * 5000 + 200 t + r, n)` of `adj · (feat · w)`, with the inner product formed first, as in the
  specification. No sum is rearranged.
-/

set_option maxRecDepth 16384

noncomputable section

open scoped BigOperators

namespace Cert.KernelIdeal.HandValue

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen Cert.KernelIdeal.Hand

section Generic

variable {F : FTy → Type} [FloatOps F]
variable (m : (ℓ : Loc nD τ sig) → Buf (Elt F) ℓ)

/-! ## The windows' blocks as entries of the arrays -/

/-- The five index maps, decided once over the 25 grid points: the feature and weight windows stay at block
    (0, 0); the two adjacency windows are at row blocks `t` and `25 + t`; the output window is at block
    `(0, t, 0)`. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 25 + t.val ∧ win0_3.index t (1 : Fin 2) = 0
    ∧ win0_4.index t (0 : Fin 3) = 0 ∧ win0_4.index t (1 : Fin 3) = t.val ∧ win0_4.index t (2 : Fin 3) = 0 :=
  (by decide +kernel : ∀ t : Fin grid0.N, _)

/-- A grid point is below 25. -/
theorem t_lt (t : Fin cfg0.N) : t.val < 25 := Nat.lt_of_lt_of_eq t.isLt N_0

/-- Row `u * 5000 + t * 200 + r` of the 10000: row `r` of the 200-row block that point `t` handles in half `u`. -/
def rowOf (u : Fin 2) (t : Fin cfg0.N) (r : Fin 200) : Fin 10000 :=
  ⟨u.val * 5000 + t.val * 200 + r.val, by have := t_lt t; have := u.isLt; have := r.isLt; omega⟩

theorem rowOf_val (u : Fin 2) (t : Fin cfg0.N) (r : Fin 200) : (rowOf u t r).val = u.val * 5000 + t.val * 200 + r.val := rfl

/-- The feature window's block is the whole feature matrix, at every point. -/
theorem iblk0_eq (c : Dev nD) (t : Fin cfg0.N) : (iblk m c 0 t : Vec F S10000x128 .f32) = V m c main_arg0 := by
  obtain ⟨e0, e1, -⟩ := idx_facts t
  funext j
  unfold iblk
  rw [View.read_apply]
  show V m c main_arg0 _ = V m c main_arg0 j
  congr 1
  funext a
  apply Fin.ext
  match a with
  | ⟨0, _⟩ => show win0_0.index t 0 * 10000 + 1 * (j 0).val = (j 0).val; rw [e0]; omega
  | ⟨1, _⟩ => show win0_0.index t 1 * 128 + 1 * (j 1).val = (j 1).val; rw [e1]; omega

/-- The weight window's block is the whole weight matrix, at every point. -/
theorem iblk1_eq (c : Dev nD) (t : Fin cfg0.N) : (iblk m c 1 t : Vec F S128x128 .f32) = V m c main_arg2 := by
  obtain ⟨-, -, e0, e1, -⟩ := idx_facts t
  funext j
  unfold iblk
  rw [View.read_apply]
  show V m c main_arg2 _ = V m c main_arg2 j
  congr 1
  funext a
  apply Fin.ext
  match a with
  | ⟨0, _⟩ => show win0_1.index t 0 * 128 + 1 * (j 0).val = (j 0).val; rw [e0]; omega
  | ⟨1, _⟩ => show win0_1.index t 1 * 128 + 1 * (j 1).val = (j 1).val; rw [e1]; omega

/-- The first adjacency window's block at point `t`: rows `200 t … 200 t + 199` of the adjacency matrix. -/
theorem iblk2_apply (c : Dev nD) (t : Fin cfg0.N) (r : Fin 200) (k : Fin 10000) :
    (iblk m c 2 t : Vec F S200x10000 .f32) (ix2 r k)
      = V m c main_arg1 (ix2 (n0 := 10000) (n1 := 10000) (rowOf 0 t r) k) := by
  obtain ⟨-, -, -, -, e0, e1, -⟩ := idx_facts t
  unfold iblk
  rw [View.read_apply]
  show V m c main_arg1 _ = V m c main_arg1 _
  congr 1
  funext a
  apply Fin.ext
  match a with
  | ⟨0, _⟩ => show win0_2.index t 0 * 200 + 1 * r.val = (0 : Fin 2).val * 5000 + t.val * 200 + r.val; rw [e0]; simp
  | ⟨1, _⟩ => show win0_2.index t 1 * 10000 + 1 * k.val = k.val; rw [e1]; omega

/-- The second adjacency window's block at point `t`: rows `5000 + 200 t … 5000 + 200 t + 199`. -/
theorem iblk3_apply (c : Dev nD) (t : Fin cfg0.N) (r : Fin 200) (k : Fin 10000) :
    (iblk m c 3 t : Vec F S200x10000 .f32) (ix2 r k)
      = V m c main_arg1 (ix2 (n0 := 10000) (n1 := 10000) (rowOf 1 t r) k) := by
  obtain ⟨-, -, -, -, -, -, e0, e1, -⟩ := idx_facts t
  unfold iblk
  rw [View.read_apply]
  show V m c main_arg1 _ = V m c main_arg1 _
  congr 1
  funext a
  apply Fin.ext
  match a with
  | ⟨0, _⟩ => show win0_3.index t 0 * 200 + 1 * r.val = (1 : Fin 2).val * 5000 + t.val * 200 + r.val; rw [e0]; simp; omega
  | ⟨1, _⟩ => show win0_3.index t 1 * 10000 + 1 * k.val = k.val; rw [e1]; omega

/-- Row `r` of whichever adjacency block half `u` uses at point `t` is row `u * 5000 + 200 t + r` of the
    adjacency matrix. -/
theorem block_row (c : Dev nD) (t : Fin cfg0.N) (u : Fin 2) (r : Fin 200) (k : Fin 10000) :
    (if u.val = 0 then (iblk m c 2 t : Vec F S200x10000 .f32) else iblk m c 3 t) (ix2 r k)
      = V m c main_arg1 (ix2 (n0 := 10000) (n1 := 10000) (rowOf u t r) k) := by
  by_cases hu : u.val = 0
  · rw [if_pos hu]
    obtain rfl : u = 0 := Fin.ext hu
    exact iblk2_apply m c t r k
  · rw [if_neg hu]
    obtain rfl : u = 1 := Fin.ext (by have := u.isLt; show u.val = 1; omega)
    exact iblk3_apply m c t r k

end Generic

section AtIdeal

/-! ## The values at the extended reals -/

variable (m : (ℓ : Loc nD τ sig) → Buf (Elt Ideal) ℓ) (c : Dev nD)

/-- Two slabs, each a 200-row block times one 10000 × 128 matrix `xs`, read at `(u, r, n)`: row `r` of block `u`
    times column `n` of `xs`. -/
theorem slabs_apply
    (inb1 : ∀ a, (![1, 0, 0] : Fin 3 → Nat) a + (![1, 200, 128] : Fin 3 → Nat) a ≤ S2x200x128.size a)
    (inb0 : ∀ a, (![0, 0, 0] : Fin 3 → Nat) a + (![1, 200, 128] : Fin 3 → Nat) a ≤ S2x200x128.size a)
    (a2 a3 : Vec Ideal S200x10000 .f32) (xs : Vec Ideal S10000x128 .bf16) (u : Fin 2) (r : Fin 200) (n : Fin 128) :
    View.canon [(⟨Rect.unit (s := S2x200x128) ![1, 0, 0] ![1, 200, 128] inb1, k0_pay3 (F := Ideal) a3 xs⟩ : View.Piece (Elt Ideal) S2x200x128 .f32),
        ⟨Rect.unit (s := S2x200x128) ![0, 0, 0] ![1, 200, 128] inb0, k0_pay2 (F := Ideal) a2 xs⟩] (ix3 u r n)
      = ∑ k : Fin 10000, (if u.val = 0 then a2 else a3) (ix2 r k) * xs (ix2 k n) := by
  refine (canon_two_slabs (Val := Elt Ideal) inb1 inb0 (k0_pay3 (F := Ideal) a3 xs) (k0_pay2 (F := Ideal) a2 xs) u r n).trans ?_
  by_cases hu : u.val = 0
  · rw [if_pos hu, if_pos hu]; exact Pay.pay2_apply a2 xs r n
  · rw [if_neg hu, if_neg hu]; exact Pay.pay3_apply a3 xs r n

/-- What the first point leaves in the scratch is the product of the feature and weight matrices. -/
theorem scr_eq : scr (F := Ideal) m c = Cert.Spec.XW (V m c main_arg0) (V m c main_arg2) := by
  unfold scr
  refine (scr_piece (F := Ideal) c (grid0.coords t0) (ms0 t0) (hs0 t0) (ms1 t0) (hs1 t0) (ms2 t0) (hs2 t0) (ms3 t0) (hs3 t0) (ms4 t0) (hs4 t0) scM (Memref.isWhole_whole _) ((hcond0 t0).mpr rfl) (iblk m c 0 t0) (iblk m c 1 t0) (iblk m c 2 t0) (iblk m c 3 t0) VS VS.junk).trans ?_
  rw [iblk0_eq, iblk1_eq]
  funext i
  exact Pay.pay1_apply _ _ i

/-- What point `t` leaves in the output block, at `(u, r, n)`: entry `(u * 5000 + 200 t + r, n)` of
    `adj · (feat · w)`. -/
theorem out4_apply_row (t : Fin cfg0.N) (u : Fin 2) (r : Fin 200) (n : Fin 128) :
    out4 (F := Ideal) m c t (ix3 u r n)
      = Cert.Spec.G (V m c main_arg0) (V m c main_arg1) (V m c main_arg2) (ix2 (n0 := 10000) (n1 := 128) (rowOf u t r) n) := by
  rw [Cert.Spec.G_ix2]
  by_cases hz : t.val = 0
  · rw [out4_first m c t hz]
    refine (congrFun (out_first_canon (F := Ideal) c (grid0.coords t) (ms0 t) (hs0 t) (ms1 t) (hs1 t) (ms2 t) (hs2 t) (ms3 t) (hs3 t) (ms4 t) (hs4 t) scM (Memref.isWhole_whole _) ((hcond0 t).mpr hz) (iblk m c 0 t) (iblk m c 1 t) (iblk m c 2 t) (iblk m c 3 t) VO VO.junk) (ix3 u r n)).trans ?_
    refine (slabs_apply _ _ (iblk m c 2 t) (iblk m c 3 t) (k0_pay1 (F := Ideal) (iblk m c 0 t) (iblk m c 1 t)) u r n).trans ?_
    refine Finset.sum_congr rfl fun k _ => ?_
    rw [block_row m c t u r k, Pay.pay1_apply, iblk0_eq, iblk1_eq]
  · rw [out4_later m c t hz]
    refine (congrFun (out_later_canon (F := Ideal) c (grid0.coords t) (ms0 t) (hs0 t) (ms1 t) (hs1 t) (ms2 t) (hs2 t) (ms3 t) (hs3 t) (ms4 t) (hs4 t) scM (Memref.isWhole_whole _) (fun hc => hz ((hcond0 t).mp hc)) (iblk m c 0 t) (iblk m c 1 t) (iblk m c 2 t) (iblk m c 3 t) (scr m c) VO VO.junk) (ix3 u r n)).trans ?_
    refine (slabs_apply _ _ (iblk m c 2 t) (iblk m c 3 t) (scr m c) u r n).trans ?_
    refine Finset.sum_congr rfl fun k _ => ?_
    rw [block_row m c t u r k, scr_eq]

/-- The same with the row written out: what point `t` leaves in the output block at `(u, r, n)` is entry
    `(u * 5000 + 200 t + r, n)` of `adj · (feat · w)`. -/
theorem out4_apply (m : (ℓ : Loc nD τ sig) → Buf (Elt Ideal) ℓ) (c : Dev nD) (t : Fin cfg0.N) (u : Fin 2) (r : Fin 200)
    (n : Fin 128) (hrow : u.val * 5000 + t.val * 200 + r.val < 10000) :
    Hand.out4 (F := Ideal) m c t (ValueIdx.ix3 u r n)
      = Cert.Spec.G (Hand.V m c main_arg0) (Hand.V m c main_arg1) (Hand.V m c main_arg2)
          (ValueIdx.ix2 (n0 := 10000) (n1 := 128) ⟨u.val * 5000 + t.val * 200 + r.val, hrow⟩ n) :=
  out4_apply_row m c t u r n

end AtIdeal

end Cert.KernelIdeal.HandValue

end
-- ==== Proof.KIValueFinal.lean ====
import proofs.«136367_g3796751090358_cont_8to1_b_758_10_alg».proof.Proof.KIFrame
import proofs.«136367_g3796751090358_cont_8to1_b_758_10_alg».proof.Proof.KIValueOut
import proofs.«136367_g3796751090358_cont_8to1_b_758_10_alg».proof.Proof.KIRun
import proofs.«136367_g3796751090358_cont_8to1_b_758_10_alg».proof.Proof.Spec
import Idealize.ShloMosaic.Lib.Pipeline.Value
import Idealize.ShloMosaic.Lib.ValueIdx
import Idealize.ShloMosaic.Lib.ValueLayout

/-!
From the blocks to the whole result.

The kernel's output array has shape [2, 5000, 128]; grid point `t` writes back the block of rows
`200 t … 200 t + 199` of both halves. Entry `(u, r, n)` of that block is entry `(u * 5000 + 200 t + r, n)` of
`adj · (feat · w)`, so every point writes its block of ONE function of the array index,
`(a, b, n) ↦ (adj · (feat · w)) (5000 a + b, n)`; the blocks cover the array (row `b` is in block `b / 200`), so after
the last point the array is that function. Reshaped row-major to [10000, 128], row `5000 a + b` is entry `(a, b)`,
and the result is `adj · (feat · w)`.
-/

set_option maxRecDepth 16384

noncomputable section

open scoped BigOperators

namespace Cert.KernelIdeal.HandValue

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen Cert.KernelIdeal.Hand

section Final

variable (m : (ℓ : Loc nD τ sig) → Buf (Elt Ideal) ℓ) (c : Dev nD)

/-! ## From blocks to the array -/

/-- The row of the 10000 that entry `(a, b, ·)` of the [2, 5000, 128] output array stands for: `5000 a + b`. -/
def rowIdx (j : S2x5000x128.Idx) : Fin 10000 :=
  ⟨(j 0).val * 5000 + (j 1).val, by
    have h0 : (j 0).val < 2 := (j 0).isLt
    have h1 : (j 1).val < 5000 := (j 1).isLt
    omega⟩

/-- Its column. -/
def colIdx (j : S2x5000x128.Idx) : Fin 128 := ⟨(j 2).val, (j 2).isLt⟩

/-- The output array as ONE function of its index: entry `(a, b, n)` is entry `(5000 a + b, n)` of
    `adj · (feat · w)`. -/
def Gout (feat : Cert.Spec.S10000x128.Idx → EReal) (adj : Cert.Spec.S10000x10000.Idx → EReal)
    (w : Cert.Spec.S128x128.Idx → EReal) : S2x5000x128.Idx → EReal :=
  fun j => Cert.Spec.G feat adj w (ix2 (n0 := 10000) (n1 := 128) (rowIdx j) (colIdx j))

/-- The same over a whole index of the block. -/
theorem out4_apply' (t : Fin cfg0.N) (y : S2x200x128.Idx) :
    out4 (F := Ideal) m c t y
      = Cert.Spec.G (V m c main_arg0) (V m c main_arg1) (V m c main_arg2)
          (ix2 (n0 := 10000) (n1 := 128) (rowOf (y 0) t (y 1)) (y 2)) := by
  exact (congrArg (out4 (F := Ideal) m c t) (eq_ix3 y)).trans (out4_apply_row m c t (y 0) (y 1) (y 2))

/-- What point `t` writes back is its block of that one function. -/
theorem flushed_eq (t : Fin cfg0.N) :
    (dats (F := Ideal) m c).flushed 4 t
      = ((cfg0.win 4).blk t).view.read (Elt Ideal) (Gout (V m c main_arg0) (V m c main_arg1) (V m c main_arg2)) := by
  show (cfg0.win 4).cut (grid0.coords t) ((dats m c).after 4 t) = _
  rw [after_4]
  obtain ⟨-, -, -, -, -, -, -, -, e0, e1, e2⟩ := idx_facts t
  funext y
  rw [View.read_apply]
  refine (out4_apply' m c t _).trans ?_
  show Cert.Spec.G _ _ _ _ = Cert.Spec.G _ _ _ _
  refine congrArg (Cert.Spec.G (V m c main_arg0) (V m c main_arg1) (V m c main_arg2)) ?_
  have hy0 : (y 0).val < 2 := (y 0).isLt
  have hy1 : (y 1).val < 200 := (y 1).isLt
  funext a
  apply Fin.ext
  match a with
  | ⟨0, _⟩ =>
    show (y 0).val * 5000 + t.val * 200 + (y 1).val
      = (win0_4.index t 0 * 2 + 1 * (y 0).val) * 5000 + (win0_4.index t 1 * 200 + 1 * (y 1).val)
    rw [e0, e1]; omega
  | ⟨1, _⟩ =>
    show (y 2).val = win0_4.index t 2 * 128 + 1 * (y 2).val
    rw [e2]; omega

/-- An index of the output array is in point `t`'s block iff each coordinate is in the block's range. -/
theorem mem_blk (t : Fin cfg0.N) (i : S2x5000x128.Idx) :
    i ∈ ((cfg0.win 4).blk t).view.set
      ↔ ∀ a : Fin 3, win0_4.index t a * S2x200x128.size a ≤ (i a).val ∧ (i a).val < win0_4.index t a * S2x200x128.size a + S2x200x128.size a := by
  show i ∈ ((View.whole main_v0).slice (win0_4.rect t)).set ↔ _
  rw [View.set_slice_whole, Rect.mem_set_unit]
  exact Iff.rfl

/-- Every index of the output array is in some point's block: row `b` of either half is in block `b / 200`. -/
theorem cover (i : S2x5000x128.Idx) :
    ∃ t : Fin cfg0.N, (cfg0.win 4).flush t = true ∧ i ∈ ((cfg0.win 4).blk t).view.set := by
  have h0 : (i 0).val < 2 := (i 0).isLt
  have h1 : (i 1).val < 5000 := (i 1).isLt
  have h2 : (i 2).val < 128 := (i 2).isLt
  have hN : cfg0.N = 25 := N_0
  refine ⟨⟨(i 1).val / 200, by rw [hN]; omega⟩, flush0_4 _, ?_⟩
  rw [mem_blk]
  obtain ⟨-, -, -, -, -, -, -, -, e0, e1, e2⟩ := idx_facts ⟨(i 1).val / 200, by rw [hN]; omega⟩
  intro a
  match a with
  | ⟨0, _⟩ =>
    show win0_4.index _ 0 * 2 ≤ (i 0).val ∧ (i 0).val < win0_4.index _ 0 * 2 + 2
    rw [e0]; omega
  | ⟨1, _⟩ =>
    show win0_4.index _ 1 * 200 ≤ (i 1).val ∧ (i 1).val < win0_4.index _ 1 * 200 + 200
    rw [e1]; show (i 1).val / 200 * 200 ≤ (i 1).val ∧ (i 1).val < (i 1).val / 200 * 200 + 200; omega
  | ⟨2, _⟩ =>
    show win0_4.index _ 2 * 128 ≤ (i 2).val ∧ (i 2).val < win0_4.index _ 2 * 128 + 128
    rw [e2]; omega

/-- The output array after the last point is that one function. -/
theorem final4 : (dats (F := Ideal) m c).arrAt 4 cfg0.N = Gout (V m c main_arg0) (V m c main_arg1) (V m c main_arg2) :=
  (dats (F := Ideal) m c).arrAt_eq_of_cover 4 (Gout (V m c main_arg0) (V m c main_arg1) (V m c main_arg2))
    (fun t _ => flushed_eq m c t) (cover)

/-- Reshaped row-major to [10000, 128], it is `adj · (feat · w)`. -/
theorem reshaped_Gout (feat : Cert.Spec.S10000x128.Idx → EReal) (adj : Cert.Spec.S10000x10000.Idx → EReal)
    (w : Cert.Spec.S128x128.Idx → EReal) (h : S2x5000x128.ShapeCasts S10000x128) :
    shapeCast S10000x128 (Gout feat adj w) h = Cert.Spec.G feat adj w := by
  funext i
  obtain ⟨r, n, rfl⟩ : ∃ (r : Fin 10000) (n : Fin 128), i = ix2 r n := ⟨i 0, i 1, eq_ix2 i⟩
  have hr : r.val < 10000 := r.isLt
  refine (shapeCast_apply (Gout feat adj w) h (ix2 r n)
    (ix3 (⟨r.val / 5000, by omega⟩ : Fin 2) (⟨r.val % 5000, by omega⟩ : Fin 5000) n) ?_).trans ?_
  · rw [Shape.rowMajor_val_three, Shape.rowMajor_val_two]
    show (r.val / 5000 * 5000 + r.val % 5000) * 128 + n.val = r.val * 128 + n.val
    omega
  · show Cert.Spec.G feat adj w _ = Cert.Spec.G feat adj w _
    refine congrArg (Cert.Spec.G feat adj w) ?_
    funext a
    apply Fin.ext
    match a with
    | ⟨0, _⟩ => show r.val / 5000 * 5000 + r.val % 5000 = r.val; omega
    | ⟨1, _⟩ => rfl

/-- The output array after the last point, reshaped row-major to [10000, 128], is `adj · (feat · w)` of the
    arrays as the region found them. -/
theorem reshaped (m : (ℓ : Loc nD τ sig) → Buf (Elt Ideal) ℓ) (c : Dev nD) :
    (fun i => shapeCast S10000x128 (Hand.fin4 (F := Ideal) m c) shapeCasts_S2x5000x128_S10000x128 i)
      = Cert.Spec.G (m ((c : Thread nD τ).loc main_arg0)) (m ((c : Thread nD τ).loc main_arg1))
          (m ((c : Thread nD τ).loc main_arg2)) := by
  have h4 : Hand.fin4 (F := Ideal) m c = Gout (V m c main_arg0) (V m c main_arg1) (V m c main_arg2) := final4 m c
  show shapeCast S10000x128 (Hand.fin4 (F := Ideal) m c) shapeCasts_S2x5000x128_S10000x128 = _
  rw [h4]
  exact reshaped_Gout _ _ _ _

end Final

end Cert.KernelIdeal.HandValue

end
-- ==== Proof.lean ====
/-
  The kernel computes out = adj · (feat · weight) for adj : f32[10000, 10000], feat : f32[10000, 128], weight : f32[128, 128].
  The product xw = feat · weight is formed once, at the first of 25 grid points, rounded to bf16 and kept in a scratch
  buffer for all later points; every point multiplies two blocks of 200 rows of adj (rows 200 t … and rows
  5000 + 200 t …, both rounded to bf16 on the way in) with xw and writes the two 200 × 128 results into the slabs
  [0, 200 t …, :] and [1, 200 t …, :] of an output of shape [2, 5000, 128], which a final reshape reads as [10000, 128].
  Over the extended reals a change of float format is the identity and a matrix product into a zero accumulator is the plain
  sum of products, so row r of the result is ∑ k, adj[r, k] · (∑ j, feat[k, j] · weight[j, n]) — the reference's
  matmul(adj, matmul(feat, weight)) with the same grouping of the two sums: no law of arithmetic beyond that is used,
  and the precondition (finite inputs) is not needed.
  The frame of the kernel program (it terminates, faults nowhere, leaves its arguments unchanged) is proved once for
  any float instance: the body is run symbolically at the first point and at a later point, the scratch carried
  between points in the region's invariant; the array adj, read through two windows, is held by them at the two halves
  of the full share and put together again at the region's exit, before the reshape.
-/
import proofs.«136367_g3796751090358_cont_8to1_b_758_10_alg».proof.Defs
import proofs.«136367_g3796751090358_cont_8to1_b_758_10_alg».proof.Proof.Gen.Kernel
import proofs.«136367_g3796751090358_cont_8to1_b_758_10_alg».proof.Proof.Gen.KernelIdeal
import proofs.«136367_g3796751090358_cont_8to1_b_758_10_alg».proof.Proof.Gen.ReferenceIdeal
import proofs.«136367_g3796751090358_cont_8to1_b_758_10_alg».proof.Proof.Gen.ReferenceIdeal.Run
import proofs.«136367_g3796751090358_cont_8to1_b_758_10_alg».proof.Proof.Gen.Pre_finite_inputs
import proofs.«136367_g3796751090358_cont_8to1_b_758_10_alg».proof.Proof.KRun
import proofs.«136367_g3796751090358_cont_8to1_b_758_10_alg».proof.Proof.KIRun
import proofs.«136367_g3796751090358_cont_8to1_b_758_10_alg».proof.Proof.RefValue
import proofs.«136367_g3796751090358_cont_8to1_b_758_10_alg».proof.Proof.KIValueFinal
import Idealize.ShloMosaic.Adequacy
import Idealize.ShloMosaic.Init

noncomputable section

namespace Cert.Proof

open Idealize.ShloMosaic Idealize.ShloMosaic.TcCoe Idealize.SL.Sem

/-- The word-level kernel program runs to the end and leaves its three arguments as they were. -/
theorem frame_k : Cert.frame_Kernel := fun m ρ _ =>
  (θ_run Cert.Kernel.defs _ _).mono (fun _ h c => ⟨(h c).2.1, (h c).2.2.1, (h c).2.2.2⟩) (Cert.Kernel.Hand.run_main (F := Bits) m ρ)

/-- So does its idealization. -/
theorem frame_ki : Cert.frame_KernelIdeal := fun m ρ _ =>
  (θ_run Cert.KernelIdeal.defs _ _).mono (fun _ h c => ⟨(h c).2.1, (h c).2.2.1, (h c).2.2.2⟩) (Cert.KernelIdeal.Hand.run_main (F := Ideal) m ρ)

/-- The reference is two host matrix products: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with adj · (feat · weight), the two sums grouped alike. -/
theorem algebraic : Cert.algebraic_KernelIdeal_ReferenceIdeal := by
  intro m ρ m' ρ' _ hagree
  refine ⟨fun c => Cert.Spec.G (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)), ?_, ?_⟩
  · exact (θ_run Cert.KernelIdeal.defs _ _).mono (fun _ h c => ⟨(h c).1.trans (Cert.KernelIdeal.HandValue.reshaped m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    exact Cert.ReferenceIdeal.RefValue.ref_eq_G _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
